-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x32000 : Shape := ⟨3, ![2, 2048, 32000]⟩
abbrev S2x2048 : Shape := ⟨2, ![2, 2048]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel

variable [Facts]

def fn {F : FTy → Type} [FloatOps F] (main_arg0 : FVec F S2x2048x32000 .f32) (main_arg1 : FVec F S2x2048x32000 .f32) (main_arg2 : IVec S2x2048 1) : IVec S_ 1 :=
  let main_v0 : FVec F S2x2048x32000 .f32 := Host.absf main_arg0
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_v4 : FVec F S2x2048x32000 .f32 := Host.absf main_arg1
  let main_cst_0 : FVec F S_ .f32 := constant S_ .f32 0x7F800000#32
  let main_v5 : FVec F S2x2048x32000 .f32 := broadcastInDim S2x2048x32000 ![] bcast_S_S2x2048x32000 main_cst_0
  let main_v6 : IVec S2x2048x32000 1 := cmpf .olt main_v4 main_v5
  let main_c_1 : IVec S_ 1 := constantI S_ 1 1#1
  let main_v7 : IVec S_ 1 := (fun x v => Host.reduce IntOp.andi x v reducesTo_S2x2048x32000_S_d0_1_2 h_S_) main_v6 main_c_1
  let main_v8 : IVec S_ 1 := andi main_v3 main_v7
  main_v8
-- ==== Kernel.lean ====
abbrev S2x2048x32000 : Shape := ⟨3, ![2, 2048, 32000]⟩
abbrev S2x2048 : Shape := ⟨2, ![2, 2048]⟩
abbrev S2x2048x1 : Shape := ⟨3, ![2, 2048, 1]⟩
abbrev S_ : Shape := ⟨0, ![]⟩
abbrev S2x1x1 : Shape := ⟨3, ![2, 1, 1]⟩
abbrev S1x16x32000 : Shape := ⟨3, ![1, 16, 32000]⟩
abbrev S1x16x1 : Shape := ⟨3, ![1, 16, 1]⟩
abbrev S1x1x1 : Shape := ⟨3, ![1, 1, 1]⟩
abbrev S1x1 : Shape := ⟨2, ![1, 1]⟩
abbrev S16x32000 : Shape := ⟨2, ![16, 32000]⟩
abbrev S16 : Shape := ⟨1, ![16]⟩
abbrev S16x1 : Shape := ⟨2, ![16, 1]⟩
abbrev S1 : Shape := ⟨1, ![1]⟩

abbrev nBuf : Space → Nat
  | .hbm => 15
  | .vmem => 8
  | .smem => 0
  | _ => 0

abbrev bufTy : (tb : Table) → Fin (tcTables nBuf tb) → BufTy
  | .hbm, ⟨0, _⟩ => ⟨S2x2048x32000, .f32⟩
  | .hbm, ⟨1, _⟩ => ⟨S2x2048x32000, .f32⟩
  | .hbm, ⟨2, _⟩ => ⟨S2x2048, .i1⟩
  | .hbm, ⟨3, _⟩ => ⟨S2x2048, .f32⟩
  | .hbm, ⟨4, _⟩ => ⟨S2x2048x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x16x32000, .f32⟩
  | .local _ .vmem, ⟨1, _⟩ => ⟨S1x16x32000, .f32⟩
  | .local _ .vmem, ⟨2, _⟩ => ⟨S1x16x32000, .f32⟩
  | .local _ .vmem, ⟨3, _⟩ => ⟨S1x16x32000, .f32⟩
  | .local _ .vmem, ⟨4, _⟩ => ⟨S1x16x1, .f32⟩
  | .local _ .vmem, ⟨5, _⟩ => ⟨S1x16x1, .f32⟩
  | .local _ .vmem, ⟨6, _⟩ => ⟨S1x1x1, .f32⟩
  | .local _ .vmem, ⟨7, _⟩ => ⟨S1x1x1, .f32⟩
  | _, _ => ⟨S2x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S2x2048_S2x2048x1_0_1 : S2x2048.BroadcastsInDim S2x2048x1 (![0, 1] : Fin 2 → Fin S2x2048x1.rank)
  reducesTo_S2x2048x1_S_d0_1_2 : S2x2048x1.ReducesTo [0, 1, 2] S_
  h_S_ : 0 < S_.numel
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x16x32000_S1x16x32000_0_0_0 : ∀ a, (![0, 0, 0] : Fin 3 → Nat) a + S1x16x32000.size a ≤ S1x16x32000.size a
  h_S1x16x32000 : 0 < S1x16x32000.numel
  shapeCasts_S1x16x32000_S16x32000 : S1x16x32000.ShapeCasts S16x32000
  reduces_S16x32000_S16 : S16x32000.Reduces [1] S16
  shapeCasts_S16_S16x1 : S16.ShapeCasts S16x1
  broadcasts_S16x1_S16x32000 : S16x1.Broadcasts S16x32000
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  reduces_S16x1_S1 : S16x1.Reduces [0] S1
  shapeCasts_S1_S1x1 : S1.ShapeCasts S1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32000.size a ≤ S2x2048x32000.size a
  hwx0_0 : ∀ i : grid0.Coords, EltTy.bits .f32 = 32 ∨ (Rect.block (s := S2x2048x32000) S1x16x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32000.size a ≤ S2x2048x32000.size a
  hwx0_1 : ∀ i : grid0.Coords, EltTy.bits .f32 = 32 ∨ (Rect.block (s := S2x2048x32000) S1x16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S2x2048x1.size a
  hwx0_2 : ∀ i : grid0.Coords, EltTy.bits .f32 = 32 ∨ (Rect.block (s := S2x2048x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S1x16x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x32000 : Shape := ⟨3, ![2, 2048, 32000]⟩
abbrev S2x2048 : Shape := ⟨2, ![2, 2048]⟩
abbrev S_ : Shape := ⟨0, ![]⟩
abbrev S2x2048x1 : Shape := ⟨3, ![2, 2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x32000, .f32⟩
  | .hbm, ⟨1, _⟩ => ⟨S2x2048x32000, .f32⟩
  | .hbm, ⟨2, _⟩ => ⟨S2x2048, .i1⟩
  | .hbm, ⟨3, _⟩ => ⟨S_, .f32⟩
  | .hbm, ⟨4, _⟩ => ⟨S2x2048x32000, .f32⟩
  | .hbm, ⟨5, _⟩ => ⟨S2x2048x32000, .f32⟩
  | .hbm, ⟨6, _⟩ => ⟨S_, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048x1, .f32⟩
  | .hbm, ⟨12, _⟩ => ⟨S2x2048x32000, .f32⟩
  | .hbm, ⟨13, _⟩ => ⟨S2x2048x32000, .f32⟩
  | .hbm, ⟨14, _⟩ => ⟨S2x2048x32000, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S2x2048x1, .f32⟩
  | .hbm, ⟨19, _⟩ => ⟨S2x2048x32000, .f32⟩
  | .hbm, ⟨20, _⟩ => ⟨S2x2048x32000, .f32⟩
  | .hbm, ⟨21, _⟩ => ⟨S_, .f32⟩
  | .hbm, ⟨22, _⟩ => ⟨S2x2048x32000, .f32⟩
  | .hbm, ⟨23, _⟩ => ⟨S2x2048x32000, .f32⟩
  | .hbm, ⟨24, _⟩ => ⟨S_, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048x1, .f32⟩
  | .hbm, ⟨30, _⟩ => ⟨S2x2048x32000, .f32⟩
  | .hbm, ⟨31, _⟩ => ⟨S2x2048x32000, .f32⟩
  | .hbm, ⟨32, _⟩ => ⟨S2x2048x32000, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S2x2048x1, .f32⟩
  | .hbm, ⟨37, _⟩ => ⟨S2x2048x32000, .f32⟩
  | .hbm, ⟨38, _⟩ => ⟨S2x2048x32000, .f32⟩
  | .hbm, ⟨39, _⟩ => ⟨S2x2048x32000, .f32⟩
  | .hbm, ⟨40, _⟩ => ⟨S_, .f32⟩
  | .hbm, ⟨41, _⟩ => ⟨S2x2048x32000, .f32⟩
  | .hbm, ⟨42, _⟩ => ⟨S2x2048x32000, .f32⟩
  | .hbm, ⟨43, _⟩ => ⟨S2x2048x32000, .f32⟩
  | .hbm, ⟨44, _⟩ => ⟨S2x2048x32000, .f32⟩
  | .hbm, ⟨45, _⟩ => ⟨S2x2048x32000, .f32⟩
  | .hbm, ⟨46, _⟩ => ⟨S_, .f32⟩
  | .hbm, ⟨47, _⟩ => ⟨S2x2048, .f32⟩
  | .hbm, ⟨48, _⟩ => ⟨S2x2048x32000, .f32⟩
  | .hbm, ⟨49, _⟩ => ⟨S2x2048x32000, .f32⟩
  | .hbm, ⟨50, _⟩ => ⟨S2x2048x32000, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x2048, .f32⟩
  | .hbm, ⟨59, _⟩ => ⟨S2x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_cst_4 : Ref sig .tc := ⟨.hbm, 54, rfl⟩
abbrev main_v18 : Ref sig .tc := ⟨.hbm, 55, rfl⟩
abbrev main_cst_5 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_cst_7 : Ref sig .tc := ⟨.hbm, 62, rfl⟩
abbrev main_v23 : Ref sig .tc := ⟨.hbm, 63, rfl⟩
abbrev main_v24 : Ref sig .tc := ⟨.hbm, 64, rfl⟩

abbrev nD : Nat := 1
abbrev τ : Topo := Topo.v7x

variable {F : FTy → Type} [FloatOps F]

class Facts₀ : Prop where
  bcast_S_S2x2048x32000 : S_.BroadcastsInDim S2x2048x32000 (![] : Fin 0 → Fin S2x2048x32000.rank)
  reducesTo_S2x2048x32000_S2x2048_d2 : S2x2048x32000.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x32000_0_1_2 : S2x2048x1.BroadcastsInDim S2x2048x32000 (![0, 1, 2] : Fin 3 → Fin S2x2048x32000.rank)
  reducesTo_S2x2048_S_d0_1 : S2x2048.ReducesTo [0, 1] S_

variable [Facts₀]

class Facts : Prop extends Facts₀ where

variable [Facts]
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.JsdPre.lean ====
/-
  The precondition, read back: every entry of the two float arrays is a real number.

  The precondition states, of each of the two float arrays, that every entry's absolute value is below the word of
  +infinity, conjoined over all entries by a reduction with "and" from 1. A reduction by "and" that is 1 had a 1 at every
  entry; an entry x with max x (-x) below the top element is neither infinity, so it is (the coercion of) a real number.
-/
import proofs.«110897_j6786048328246_1_alg».proof.Pre_finite_inputs
import Idealize.ShloMosaic.PureOps.Ideal
import Idealize.ShloMosaic.Lib.ReduceAll
import Idealize.ShloMosaic.Lib.ValueIdx
import Idealize.ShloMosaic.Lib.Pipeline.Value
import proofs.«110897_j6786048328246_1_alg».proof.Proof.LibReal

noncomputable section

namespace Cert.Jsd.Pre

open Idealize.ShloMosaic Cert.LibReal Cert.Pre_finite_inputs Cert.Pre_finite_inputs.Facts

/-- An extended real whose absolute value compares below the top element is a real number. -/
theorem isReal_of_abs_lt_top (x : EReal) (h : Ideal.cmp .olt (max x (-x)) ⊤ = 1#1) : IsReal x := by
  have ht : x ≠ ⊤ := by
    rintro rfl
    revert h
    simp [Ideal.cmp]
  have hb : x ≠ ⊥ := by
    rintro rfl
    revert h
    simp [Ideal.cmp]
  exact ⟨x.toReal, (EReal.coe_toReal ht hb).symm⟩

instance : Subsingleton Cert.Pre_finite_inputs.S_.Idx := ⟨fun a b => funext fun d => d.elim0⟩

variable [Cert.Pre_finite_inputs.Facts]

/-- The splat of the word of +infinity reads the top element everywhere. -/
theorem splat_inf_apply (i : S2x2048x32000.Idx) :
    broadcastInDim S2x2048x32000 ![] bcast_S_S2x2048x32000 (constant (F := Ideal) S_ .f32 0x7F800000#32) i = (⊤ : EReal) := by
  refine (broadcastInDim_apply _ bcast_S_S2x2048x32000 _ i (fun a => a.elim0) (fun a => a.elim0)).trans ?_
  show Ideal.ofBits .f32 0x7F800000#32 = ⊤
  simp [Ideal.ofBits, Ideal.ieee]

/-- One array all of whose entries compare, in absolute value, below the splat of +infinity has real entries. -/
theorem real_of_all (A : FVec Ideal S2x2048x32000 .f32)
    (e : Host.reduce IntOp.andi
        (cmpf .olt (Host.absf A) (broadcastInDim S2x2048x32000 ![] bcast_S_S2x2048x32000 (constant (F := Ideal) S_ .f32 0x7F800000#32)))
        (constantI S_ 1 1#1) reducesTo_S2x2048x32000_S_d0_1_2 h_S_ ValueIdx.ix0 = 1#1) (i : S2x2048x32000.Idx) : IsReal (A i) := by
  have h1 := Host.reduce_andi_all _ _ _ _ _ e i
  have h2 : Ideal.cmp .olt (max (A i) (-(A i)))
      (broadcastInDim S2x2048x32000 ![] bcast_S_S2x2048x32000 (constant (F := Ideal) S_ .f32 0x7F800000#32) i) = 1#1 := h1
  rw [splat_inf_apply] at h2
  exact isReal_of_abs_lt_top (A i) h2

/-- THE PRECONDITION READ BACK: both float arrays have real entries. -/
theorem real_of_pre (A0 A1 : FVec Ideal S2x2048x32000 .f32) (A2 : IVec S2x2048 1)
    (h : Cert.Pre_finite_inputs.fn (F := Ideal) A0 A1 A2 = fun _ => 1#1) :
    (∀ i, IsReal (A0 i)) ∧ ∀ i, IsReal (A1 i) := by
  have h0 := congrFun h ValueIdx.ix0
  dsimp only [Cert.Pre_finite_inputs.fn] at h0
  have h1 : IntOp.andi _ _ = 1#1 := h0
  obtain ⟨e0, e1⟩ := IntOp.andi_eq_one.1 h1
  exact ⟨real_of_all A0 e0, real_of_all A1 e1⟩

end Cert.Jsd.Pre

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibRowNormalize.lean ====
/-
  THE ROWS OF A MATRIX DIVIDED BY THEIR CLAMPED LENGTHS, READ AT AN INDEX, over generic extents.

  A body that L2-normalises the rows of an [a, d] matrix X writes: the squares X * X, their sum along the second axis (a
  vector of a sums), that vector cast to a column [a, 1], its square root, the maximum with a splat constant eps (so that a
  zero row is not divided by zero), the column stretched back over [a, d], and the quotient of X by it. Read at the
  extended reals at (i, k) this is

      X (i, k) / max (sqrt (sum over j of X (i, j) * X (i, j))) eps

  where the sum has no rounding and no order, the square root and the quotient are the extended reals' ones, and eps is
  the extended real the constant's word denotes. Each layout step is read at an index written by its coordinates: the sum
  along the second axis at i is the sum over the row i; a vector cast to a column reads its entry; a column stretched over
  the matrix reads the column's entry of that row.
-/
import Idealize.ShloMosaic.Lib.ValueIdx
import Idealize.ShloMosaic.Lib.Pipeline.Value
import Idealize.ShloMosaic.PureOps.Ideal.Laws

noncomputable section

open scoped BigOperators

namespace Idealize.ShloMosaic.RowNormalize

open Idealize.ShloMosaic Idealize.ShloMosaic.ValueIdx

section Layout
variable {α : Type}

/-- A column [a, 1] stretched over [a, b] by a vector broadcast reads, at (i, j), the column at (i, 0). -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [a] cast to the column [a, 1] reads, at (i, u), the vector at i, whatever the unit coordinate u. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- For a sum along the second axis of [a, d], the source index over the result index i with coordinate k on the summed
    axis is (i, k). -/
theorem lift_row {a d : ℕ} (h : (⟨2, ![a, d]⟩ : Shape).Reduces [1] ⟨1, ![a]⟩) (i : Fin a) (k : Fin d) :
    h.lift (ix1 i) k = ix2 i k := by
  funext c
  apply Fin.ext
  show Shape.Reduces.liftVal h (ix1 i) k.val c = (ix2 i k c).val
  unfold Shape.Reduces.liftVal
  match c with
  | ⟨0, _⟩ => rfl
  | ⟨1, _⟩ => rfl

end Layout

/-! ## The sum of a row's squares, and the row divided by its clamped length -/

section Rows
variable {a d : ℕ}

/-- The sum along the second axis of a matrix, read at i at the extended reals: the sum over the row i. -/
theorem rowSum_apply (Y : FVec Ideal ⟨2, ![a, d]⟩ .f32) (h : (⟨2, ![a, d]⟩ : Shape).Reduces [1] ⟨1, ![a]⟩)
    (hφ : FKind.Formats .f32) (hacc : (0x00000000#32 : BitVec 32) = FKind.add.neutral .f32 hφ) (i : Fin a) :
    multiReduction .add [1] ⟨1, ![a]⟩ Y 0x00000000#32 h hφ hacc (ix1 i) = ∑ k : Fin d, Y (ix2 i k) :=
  (Ideal.multiReduction_add_single Y 0x00000000#32 h hφ hacc (ix1 i)).trans
    (Finset.sum_congr rfl fun k _ => congrArg Y (lift_row h i k))

/-- The rows of X divided by their clamped lengths, as a body spells it with vector operations: the squares, their sum
    along the second axis, the cast to a column, the square root, the maximum with the splat of the word e, the column
    stretched over the matrix, the quotient. -/
def normalizeRows (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩) :
    FVec Ideal ⟨2, ![a, d]⟩ .f32 :=
  divf X (broadcastTo ⟨2, ![a, d]⟩
    (maximumf (sqrt (shapeCast ⟨2, ![a, 1]⟩ (multiReduction .add [1] ⟨1, ![a]⟩ (mulf X X) 0x00000000#32 hr hφ hacc) hc))
      (broadcast ⟨2, ![a, 1]⟩ (Scalar.ofBits (F := Ideal) .f32 e))) hb)

/-- Read at (i, k): the entry over the larger of the square root of the sum of the row's squares and the extended real
    the word e denotes. -/
theorem normalizeRows_apply (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩)
    (i : Fin a) (k : Fin d) :
    normalizeRows X e hr hφ hacc hc hb (ix2 i k)
      = Ideal.div (X (ix2 i k)) (max (Ideal.sqrt (∑ j : Fin d, X (ix2 i j) * X (ix2 i j))) (Ideal.ofBits .f32 e)) := by
  unfold normalizeRows
  refine (divf_apply _ _ _).trans ?_
  refine congrArg (Ideal.div (X (ix2 i k))) ?_
  refine (broadcastTo_col_apply _ hb i k).trans ?_
  refine (maximumf_apply _ _ _).trans ?_
  refine congrArg (max · (Ideal.ofBits .f32 e)) ?_
  show Ideal.sqrt (shapeCast ⟨2, ![a, 1]⟩ (multiReduction .add [1] ⟨1, ![a]⟩ (mulf X X) 0x00000000#32 hr hφ hacc) hc
    (ix2 i (0 : Fin 1))) = _
  refine congrArg Ideal.sqrt ?_
  refine (shapeCast_vec_col_apply _ hc i 0).trans ?_
  exact rowSum_apply (mulf X X) hr hφ hacc i

end Rows

end Idealize.ShloMosaic.RowNormalize

end
-- ==== Proof.LibRowSoftmax.lean ====
/-
  THE SOFTMAX OF THE ROWS OF A MATRIX, AS A KERNEL BODY SPELLS IT, READ AT AN INDEX, over generic extents.

  For a row of scores s the softmax taken against the row's peak is, at j,

      exp (s j - M) / (sum over j' of exp (s j' - M)),   M = the largest entry of the row (the fold of max from -infinity).

  A body that takes it over the rows of an [a, n] matrix S writes: the maximum of S along the second axis from the word of
  -infinity (a vector of a maxima), that vector cast to a column [a, 1] and stretched back over [a, n]; the difference of S
  and it; the exponential; the sum of that along the second axis from the zero word, cast to a column and stretched back
  likewise; and the quotient of the exponentials by the stretched sums. Read at the extended reals at (i, j) this is the
  softmax of the row i of S at j: the maximum and the sum have no rounding and no order, the exponential and the quotient are
  the extended reals' ones. Each step is read at an index written by its coordinates: a reduction along the second axis at
  i ranges over the row i, a vector cast to a column reads its entry, a column stretched over the matrix reads the column's
  entry of that row.
-/
import Idealize.ShloMosaic.Lib.ValueIdx
import Idealize.ShloMosaic.Lib.Pipeline.Value
import Idealize.ShloMosaic.PureOps.Ideal.Laws
import proofs.«110897_j6786048328246_1_alg».proof.Proof.LibColumnOps
import proofs.«110897_j6786048328246_1_alg».proof.Proof.LibRowNormalize

noncomputable section

open scoped BigOperators

namespace Idealize.ShloMosaic.RowSoftmax

open Idealize.ShloMosaic Idealize.ShloMosaic.ValueIdx

/-- The largest entry of a row: the fold of max from -infinity. -/
def peak {n : ℕ} (s : Fin n → EReal) : EReal := (Finset.univ : Finset (Fin n)).fold max ⊥ s

/-- The softmax of a row of scores at j, taken against the row's peak. -/
def softmax {n : ℕ} (s : Fin n → EReal) (j : Fin n) : EReal :=
  Ideal.div (Ideal.exp (s j - peak s)) (∑ j' : Fin n, Ideal.exp (s j' - peak s))

variable {a n : ℕ}

/-- The rows' maxima from the word of -infinity, kept as a column and stretched back over the matrix. -/
def peakRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .maximumf [1] ⟨1, ![a]⟩ S 0xFF800000#32 hr hφ hmax) hc) hb

/-- Read at (i, j): the peak of the row i. -/
theorem peakRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    peakRows S hr hφ hmax hc hb (ix2 i j) = peak fun j' : Fin n => S (ix2 i j') := by
  unfold peakRows
  refine (ColumnOps.broadcastTo_col_apply _ hb i j).trans ?_
  refine (RowNormalize.shapeCast_vec_col_apply _ hc i 0).trans ?_
  refine (ColumnOps.rowMax_single S hr hφ hmax (ix1 i)).trans ?_
  show (Finset.univ : Finset (Fin n)).fold max ⊥ (S ∘ hr.lift (ix1 i)) = _
  unfold peak
  exact congrArg (fun f => Finset.fold max ⊥ f (Finset.univ : Finset (Fin n)))
    (funext fun k => congrArg S (RowNormalize.lift_row hr i k))

/-- The rows' sums from the zero word, kept as a column and stretched back over the matrix. -/
def sumRows (E : FVec Ideal ⟨2, ![a, n]⟩ .f32) (hr : (⟨2, ![a, n]⟩ : Shape).Reduces [1] ⟨1, ![a]⟩) (hφ : FKind.Formats .f32)
    (hadd : (0x00000000#32 : BitVec 32) = 0x00000000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .add [1] ⟨1, ![a]⟩ E 0x00000000#32 hr hφ hadd) hc) hb

/-- Read at (i, j): the sum over the row i. -/
theorem sumRows_apply (E : FVec Ideal ⟨2, ![a, n]⟩ .f32) (hr : (⟨2, ![a, n]⟩ : Shape).Reduces [1] ⟨1, ![a]⟩)
    (hφ : FKind.Formats .f32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    sumRows E hr hφ hadd hc hb (ix2 i j) = ∑ j' : Fin n, E (ix2 i j') := by
  unfold sumRows
  refine (ColumnOps.broadcastTo_col_apply _ hb i j).trans ?_
  refine (RowNormalize.shapeCast_vec_col_apply _ hc i 0).trans ?_
  refine (ColumnOps.rowSum_single E hr hφ hadd (ix1 i)).trans ?_
  exact Finset.sum_congr rfl fun k _ => congrArg E (RowNormalize.lift_row hr i k)

/-- The exponentials of the rows' scores against their peaks. -/
def expRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  exp (subf S (peakRows S hr hφ hmax hc hb))

/-- Read at (i, j): the exponential of the score less the row's peak. -/
theorem expRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    expRows S hr hφ hmax hc hb (ix2 i j) = Ideal.exp (S (ix2 i j) - peak fun j' : Fin n => S (ix2 i j')) := by
  show Ideal.exp (S (ix2 i j) - peakRows S hr hφ hmax hc hb (ix2 i j)) = _
  rw [peakRows_apply]

/-- The softmax of the rows as a body spells it with vector operations: the exponentials against the stretched peaks over
    their stretched row sums. -/
def softmaxRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  divf (expRows S hr hφ hmax hc hb) (sumRows (expRows S hr hφ hmax hc hb) hr hφ hadd hc hb)

/-- Read at (i, j): the softmax of the row i at j. -/
theorem softmaxRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    softmaxRows S hr hφ hmax hadd hc hb (ix2 i j) = softmax (fun j' : Fin n => S (ix2 i j')) j := by
  show Ideal.div (expRows S hr hφ hmax hc hb (ix2 i j)) (sumRows (expRows S hr hφ hmax hc hb) hr hφ hadd hc hb (ix2 i j)) = _
  rw [expRows_apply, sumRows_apply]
  unfold softmax
  exact congrArg (Ideal.div _) (Finset.sum_congr rfl fun j' _ => expRows_apply S hr hφ hmax hc hb i j')

end Idealize.ShloMosaic.RowSoftmax

end
-- ==== Proof.LibNonnegLinear.lean ====
/-
  Linear laws over the extended reals for sums of terms that are not negative.

  Over the extended reals multiplication does not distribute over addition in general:
  `⊤ * (1 + -1) = 0` while `⊤ * 1 + ⊤ * (-1) = ⊤ + ⊥ = ⊥`. Two restricted laws do hold.
  A sum of two terms that are not negative distributes over ANY right factor,
  `(a + b) * w = a * w + b * w` for `0 ≤ a`, `0 ≤ b`; and a factor that is not negative and
  is finite distributes over ANY sum, `(x + y) * c = x * c + y * c` for `0 ≤ c`, `c ≠ ⊤`.
  Addition and multiplication are each commutative and associative, so both laws extend to
  finite sums by induction on the index set, and with an exchange of the order of summation
  they give the law of one layer of a weighted aggregation: with weights `c e`, `d` that are
  not negative and finite, and entries `g e k`, `h k` that are not negative (they may be `⊤`),

      Σ_k ((Σ_e g e k * c e) + h k * d) * W k  =  (Σ_e (Σ_k g e k * W k) * c e) + (Σ_k h k * W k) * d

  for an arbitrary `W`: aggregating and then applying `W` is applying `W` and then aggregating.

  Last, the normalising weight: a count plus one is a real number that is at least one, so the
  reciprocal of its square root is a real number that is positive, hence not negative and finite;
  and the numbers that are not negative and finite are closed under multiplication.
-/
import Mathlib.Data.EReal.Operations
import Mathlib.Data.EReal.Inv
import Idealize.ShloMosaic.PureOps.Ideal

noncomputable section

namespace Idealize.ShloMosaic.NonnegLinear

open scoped BigOperators
open Idealize.ShloMosaic

/-! ## The two distributive laws over finite sums -/

/-- A finite sum of terms that are not negative distributes over any right factor. -/
theorem sum_mul_of_nonneg {ι : Type*} (s : Finset ι) (a : ι → EReal) (ha : ∀ i ∈ s, 0 ≤ a i)
    (w : EReal) : (∑ i ∈ s, a i) * w = ∑ i ∈ s, a i * w := by
  classical
  induction s using Finset.induction_on with
  | empty => simp
  | insert i s hi ih =>
    have hs : ∀ j ∈ s, 0 ≤ a j := fun j hj => ha j (Finset.mem_insert_of_mem hj)
    rw [Finset.sum_insert hi, Finset.sum_insert hi,
      EReal.right_distrib_of_nonneg (ha i (Finset.mem_insert_self i s)) (Finset.sum_nonneg hs),
      ih hs]

/-- A right factor that is not negative and is finite distributes over any finite sum. -/
theorem mul_sum_of_nonneg_fin {ι : Type*} (s : Finset ι) (t : ι → EReal) (c : EReal) (hc : 0 ≤ c)
    (hc' : c ≠ ⊤) : (∑ i ∈ s, t i) * c = ∑ i ∈ s, t i * c := by
  classical
  induction s using Finset.induction_on with
  | empty => simp
  | insert i s hi ih =>
    rw [Finset.sum_insert hi, Finset.sum_insert hi,
      EReal.right_distrib_of_nonneg_of_ne_top hc hc', ih]

/-! ## One layer: aggregate then apply `W`, or apply `W` then aggregate -/

/-- With entries `g`, `h` that are not negative and weights `c`, `d` that are not negative and finite,
contracting the aggregated row with `W` is aggregating the rows contracted with `W`. -/
theorem layer_law {E K : Type*} [Fintype K] (S : Finset E) (g : E → K → EReal) (c : E → EReal)
    (h : K → EReal) (d : EReal) (W : K → EReal)
    (hg : ∀ e k, 0 ≤ g e k) (hc : ∀ e, 0 ≤ c e) (hc' : ∀ e, c e ≠ ⊤) (hh : ∀ k, 0 ≤ h k)
    (hd : 0 ≤ d) (hd' : d ≠ ⊤) :
    ∑ k, ((∑ e ∈ S, g e k * c e) + h k * d) * W k
      = (∑ e ∈ S, (∑ k, g e k * W k) * c e) + (∑ k, h k * W k) * d := by
  -- at each `k`: split the two nonnegative summands, then the inner nonnegative sum, over `W k`
  have h1 : ∀ k, ((∑ e ∈ S, g e k * c e) + h k * d) * W k
      = (∑ e ∈ S, (g e k * W k) * c e) + (h k * W k) * d := by
    intro k
    rw [EReal.right_distrib_of_nonneg
        (Finset.sum_nonneg fun e _ => mul_nonneg (hg e k) (hc e)) (mul_nonneg (hh k) hd),
      sum_mul_of_nonneg S (fun e => g e k * c e) (fun e _ => mul_nonneg (hg e k) (hc e)) (W k)]
    congr 1
    · exact Finset.sum_congr rfl fun e _ => mul_right_comm _ _ _
    · exact mul_right_comm _ _ _
  -- sum over `k`, exchange the two sums, and pull the finite nonnegative weights out
  rw [Finset.sum_congr rfl fun k _ => h1 k, Finset.sum_add_distrib, Finset.sum_comm]
  congr 1
  · exact Finset.sum_congr rfl fun e _ =>
      (mul_sum_of_nonneg_fin Finset.univ (fun k => g e k * W k) (c e) (hc e) (hc' e)).symm
  · exact (mul_sum_of_nonneg_fin Finset.univ (fun k => h k * W k) d hd hd').symm

/-! ## The normalising weight -/

/-- The f32 pattern `0x3F800000` is the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(√r)⁻¹`. -/
theorem rsqrt_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- At a positive real the reciprocal square root is not negative and is finite. -/
theorem rsqrt_of_pos_nonneg_fin {r : ℝ} (hr : 0 < r) :
    0 ≤ Ideal.rsqrt (r : EReal) ∧ Ideal.rsqrt (r : EReal) ≠ ⊤ := by
  rw [rsqrt_of_pos hr]
  exact ⟨EReal.coe_nonneg.mpr (inv_nonneg.mpr (Real.sqrt_nonneg r)), EReal.coe_ne_top _⟩

/-- A sum of ones over a finite set, plus one, is the real number `card + 1`. -/
theorem sum_one_add_one {ι : Type*} (s : Finset ι) :
    (∑ _i ∈ s, (1 : EReal)) + 1 = (((s.card : ℝ) + 1 : ℝ) : EReal) := by
  rw [Finset.sum_const, EReal.nsmul_eq_mul, mul_one, EReal.coe_add, EReal.coe_natCast, EReal.coe_one]

/-- The reciprocal square root of a count plus one is not negative and is finite. -/
theorem rsqrt_count {ι : Type*} (s : Finset ι) :
    0 ≤ Ideal.rsqrt ((∑ _i ∈ s, (1 : EReal)) + 1)
      ∧ Ideal.rsqrt ((∑ _i ∈ s, (1 : EReal)) + 1) ≠ ⊤ := by
  rw [sum_one_add_one]
  exact rsqrt_of_pos_nonneg_fin (by positivity)

/-- The extended reals that are not negative and are finite are closed under multiplication. -/
theorem mul_nonneg_fin {a b : EReal} (ha : 0 ≤ a) (ha' : a ≠ ⊤) (hb : 0 ≤ b) (hb' : b ≠ ⊤) :
    0 ≤ a * b ∧ a * b ≠ ⊤ := by
  refine ⟨mul_nonneg ha hb, ?_⟩
  lift a to ℝ using ⟨ha', (EReal.bot_lt_zero.trans_le ha).ne'⟩
  lift b to ℝ using ⟨hb', (EReal.bot_lt_zero.trans_le hb).ne'⟩
  rw [← EReal.coe_mul]
  exact EReal.coe_ne_top _

end Idealize.ShloMosaic.NonnegLinear
-- ==== Proof.LibSoftmaxSum.lean ====
/-
  A sum weighted by a row's exponentials, normalised after the sum or inside it.

  For a finite row of scores `s` let `peak s` be its greatest entry (the fold of `max` from `⊥`), `weight s n = exp (s n - peak s)`
  and `mass s = ∑ n, weight s n`. Two programs may form the same weighted average of a second row `f` in two ways:

      fused s f  = (∑ n, weight s n * f n) * (1 / mass s)        -- the quotient taken once, after the sum
      spread s f = ∑ n, f n * (weight s n / mass s)              -- every weight divided before the sum

  Over the extended reals a product does not distribute over a sum in general, so the two are not equal for arbitrary
  scores. When every score is a real number and the row is not empty, the peak is a real number, every weight is a
  positive real number (at most one), and the mass is a positive real number; its reciprocal is then a factor that is
  not negative and is finite, and such a factor distributes over any finite sum, whatever the entries of `f` are
  (they may be infinite). That is `fused_eq_spread`.

  Also here: a score scaled by the word of 1/16 is the score divided by the word of 16 (on every extended real), the
  words of 16, 1/16 and -∞ as extended reals, and that a scaled sum of products of real numbers is a real number.
-/
import Idealize.ShloMosaic.PureOps.Ideal
import Idealize.ShloMosaic.PureOps.Ideal.Laws
import proofs.«110897_j6786048328246_1_alg».proof.Proof.LibReal
import proofs.«110897_j6786048328246_1_alg».proof.Proof.LibNonnegLinear

noncomputable section

open scoped BigOperators

namespace Cert.SoftmaxSum

open Idealize.ShloMosaic Cert.LibReal Idealize.ShloMosaic.NonnegLinear

variable {ι : Type*} [Fintype ι]

/-- The greatest entry of a row, from `⊥`. -/
def peak (s : ι → EReal) : EReal := (Finset.univ : Finset ι).fold max ⊥ s

/-- The exponential of an entry's distance below the peak. -/
def weight (s : ι → EReal) (n : ι) : EReal := Ideal.exp (s n - peak s)

/-- The sum of the weights. -/
def mass (s : ι → EReal) : EReal := ∑ n, weight s n

/-- The weighted sum of `f`, divided once by the mass. -/
def fused (s f : ι → EReal) : EReal := (∑ n, weight s n * f n) * Ideal.div 1 (mass s)

/-- The sum of `f` against the weights each divided by the mass. -/
def spread (s f : ι → EReal) : EReal := ∑ n, f n * Ideal.div (weight s n) (mass s)

/-- The fold of `max` from `⊥` over a set of real numbers that is not empty is a real number. -/
theorem isReal_fold_max {κ : Type*} (t : Finset κ) (f : κ → EReal) (h : ∀ i ∈ t, IsReal (f i)) (ht : t.Nonempty) :
    IsReal (t.fold max ⊥ f) := by
  classical
  induction t using Finset.induction_on with
  | empty => exact absurd ht Finset.not_nonempty_empty
  | insert a t ha ih =>
    rw [Finset.fold_insert ha]
    obtain ⟨r, hr⟩ := h a (Finset.mem_insert_self a t)
    by_cases hne : t.Nonempty
    · obtain ⟨q, hq⟩ := ih (fun i hi => h i (Finset.mem_insert_of_mem hi)) hne
      rw [hr, hq]
      exact ⟨max r q, (EReal.coe_strictMono.monotone.map_max).symm⟩
    · rw [Finset.not_nonempty_iff_eq_empty.mp hne, Finset.fold_empty, max_bot_right]
      exact ⟨r, hr⟩

section RealRow

variable [Nonempty ι] (s : ι → EReal) (hs : ∀ n, IsReal (s n))
include hs

/-- The peak of a row of real numbers is a real number. -/
theorem isReal_peak : IsReal (peak s) :=
  isReal_fold_max Finset.univ s (fun n _ => hs n) Finset.univ_nonempty

/-- Each weight of a row of real numbers is a positive real number. -/
theorem weight_pos_real (n : ι) : ∃ r : ℝ, 0 < r ∧ weight s n = (r : EReal) := by
  obtain ⟨a, ha⟩ := hs n
  obtain ⟨b, hb⟩ := isReal_peak s hs
  refine ⟨Real.exp (a - b), Real.exp_pos _, ?_⟩
  unfold weight
  rw [ha, hb, ← EReal.coe_sub, Ideal.exp_coe]

/-- The mass of a row of real numbers is a positive real number. -/
theorem mass_pos_real : ∃ d : ℝ, 0 < d ∧ mass s = (d : EReal) := by
  choose r hr0 hr using weight_pos_real s hs
  refine ⟨∑ n, r n, Finset.sum_pos (fun n _ => hr0 n) Finset.univ_nonempty, ?_⟩
  unfold mass
  rw [coe_sum]
  exact Finset.sum_congr rfl fun n _ => hr n

/-- THE LAW: for a row of real scores that is not empty, dividing the weighted sum by the mass is summing against the
    weights each divided by the mass — for ANY second row `f`. -/
theorem fused_eq_spread (f : ι → EReal) : fused s f = spread s f := by
  obtain ⟨d, hd, hD⟩ := mass_pos_real s hs
  have hc : (0 : EReal) ≤ ((1 / d : ℝ) : EReal) := EReal.coe_nonneg.mpr (by positivity)
  unfold fused spread
  rw [hD, Ideal.div_coe hd.ne' 1, one_mul,
    mul_sum_of_nonneg_fin Finset.univ (fun n => weight s n * f n) _ hc (EReal.coe_ne_top _)]
  refine Finset.sum_congr rfl fun n _ => ?_
  rw [Ideal.div_coe hd.ne', mul_comm (weight s n) (f n), mul_assoc]

end RealRow

/-! ## The scale and the float words -/

/-- The word of `16.0` is the real number 16. -/
theorem ofBits_sixteen : Ideal.ofBits .f32 0x41800000#32 = ((16 : ℝ) : EReal) := by
  simp [Ideal.ofBits, Ideal.ieee]
  exact_mod_cast (by norm_num : (8388608 : ℝ) * (2 ^ 19)⁻¹ = 16)

/-- The word of `0.0625` is the real number 1/16. -/
theorem ofBits_sixteenth : Ideal.ofBits .f32 0x3D800000#32 = ((1 / 16 : ℝ) : EReal) := by
  simp [Ideal.ofBits, Ideal.ieee]
  exact_mod_cast (by norm_num : (8388608 : ℝ) * (2 ^ 27)⁻¹ = 16⁻¹)

/-- The word `0xFF800000` is `-∞`. -/
theorem ofBits_neg_inf : Ideal.ofBits .f32 0xFF800000#32 = (⊥ : EReal) := by
  simp [Ideal.ofBits, Ideal.ieee]

/-- Scaling by the word of 1/16 is dividing by the word of 16, on every extended real. -/
theorem mul_sixteenth_eq_div (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

/-- A sum of products of real numbers, scaled by the word of 1/16, is a real number. -/
theorem isReal_scaled_dot {κ : Type*} [Fintype κ] (q a : κ → EReal) (hq : ∀ k, IsReal (q k)) (ha : ∀ k, IsReal (a k)) :
    IsReal ((∑ k, q k * a k) * Ideal.ofBits .f32 0x3D800000#32) := by
  rw [ofBits_sixteenth]
  exact (IsReal.sum _ _ fun k _ => (hq k).mul (ha k)).mul (isReal_coe _)

end Cert.SoftmaxSum

end
-- ==== Proof.JsdLaw.lean ====
/-
  The symmetric divergence of two rows of scores, summed in two ways.

  For a finite row of scores `s` write `peak s` for its greatest entry and `mass s = ∑ n, exp (s n - peak s)`. The
  logarithm of the row's softmax at `n` can be spelled `s n - (peak s + log (mass s))` or `(s n - peak s) - log (mass s)`.
  With `x`, `y` the log-probabilities of two rows `p`, `q`, one program sums `(x - y) * (exp x - exp y)` over the row;
  another sums `exp x * (x - (x + y)/2)` and `exp y * (y - (x + y)/2)` and adds the two sums. Over the reals the second
  is half the first, term by term:

      exp x * (x - (x + y)/2) + exp y * (y - (x + y)/2) = ((x - y) * (exp x - exp y)) / 2.

  Over the extended reals the identity needs every quantity to be a real number. It is when every score is: the peak of
  a non-empty row of real numbers is real, the mass is a positive real number, so its logarithm is real, and so are both
  spellings of the log-probability, which then agree. The words of 0.5 and 0.25 are the real numbers 1/2 and 1/4.
-/
import Idealize.ShloMosaic.PureOps.Ideal
import Idealize.ShloMosaic.PureOps.Ideal.Laws
import proofs.«110897_j6786048328246_1_alg».proof.Proof.LibReal
import proofs.«110897_j6786048328246_1_alg».proof.Proof.LibSoftmaxSum

noncomputable section

open scoped BigOperators

namespace Cert.Jsd

open Idealize.ShloMosaic Cert.LibReal Cert.SoftmaxSum

/-- The word of `0.5` is the real number 1/2. -/
theorem ofBits_half : Ideal.ofBits .f32 0x3F000000#32 = ((1 / 2 : ℝ) : EReal) := by
  simp [Ideal.ofBits, Ideal.ieee]
  exact_mod_cast (by norm_num : (8388608 : ℝ) * (2 ^ 24)⁻¹ = 2⁻¹)

/-- The word of `0.25` is the real number 1/4. -/
theorem ofBits_quarter : Ideal.ofBits .f32 0x3E800000#32 = ((1 / 4 : ℝ) : EReal) := by
  simp [Ideal.ofBits, Ideal.ieee]
  exact_mod_cast (by norm_num : (8388608 : ℝ) * (2 ^ 25)⁻¹ = 4⁻¹)

variable {ι : Type*} [Fintype ι]

/-- The log-probability with the peak and the logarithm of the mass added first, then subtracted. -/
def logpA (s : ι → EReal) (n : ι) : EReal := s n - (peak s + Ideal.log (mass s))

/-- The log-probability with the peak subtracted first, then the logarithm of the mass. -/
def logpB (s : ι → EReal) (n : ι) : EReal := (s n - peak s) - Ideal.log (mass s)

/-- The divergence of two rows as one sum of products of differences. -/
def rowA (p q : ι → EReal) : EReal :=
  ∑ n, (logpA p n - logpA q n) * (Ideal.exp (logpA p n) - Ideal.exp (logpA q n))

/-- The divergence of two rows as two sums against the mean log-probability. -/
def rowB (p q : ι → EReal) : EReal :=
  (∑ n, Ideal.exp (logpB p n) * (logpB p n - Ideal.ofBits .f32 0x3F000000#32 * (logpB p n + logpB q n)))
    + ∑ n, Ideal.exp (logpB q n) * (logpB q n - Ideal.ofBits .f32 0x3F000000#32 * (logpB p n + logpB q n))

variable [Nonempty ι]

/-- For a non-empty row of real scores both spellings of the log-probability are one real number. -/
theorem logp_real (s : ι → EReal) (hs : ∀ n, IsReal (s n)) :
    ∃ x : ι → ℝ, (∀ n, logpA s n = (x n : EReal)) ∧ ∀ n, logpB s n = (x n : EReal) := by
  choose a ha using hs
  obtain ⟨M, hM⟩ := isReal_peak s (fun n => ⟨a n, ha n⟩)
  obtain ⟨d, hd, hD⟩ := mass_pos_real s (fun n => ⟨a n, ha n⟩)
  have hlog : Ideal.log (mass s) = ((Real.log d : ℝ) : EReal) := by
    rw [hD, Ideal.log_coe, if_neg (not_le.mpr hd)]
  refine ⟨fun n => a n - (M + Real.log d), fun n => ?_, fun n => ?_⟩
  · unfold logpA
    rw [ha n, hM, hlog, ← EReal.coe_add, ← EReal.coe_sub]
  · unfold logpB
    rw [ha n, hM, hlog, ← EReal.coe_sub, ← EReal.coe_sub]
    exact congrArg _ (by ring)

/-- THE LAW: for two non-empty rows of real scores, the two-sum divergence is half the one-sum divergence, and both are
    real numbers. -/
theorem row_real (p q : ι → EReal) (hp : ∀ n, IsReal (p n)) (hq : ∀ n, IsReal (q n)) :
    ∃ A : ℝ, rowA p q = (A : EReal) ∧ rowB p q = ((A / 2 : ℝ) : EReal) := by
  obtain ⟨x, hxA, hxB⟩ := logp_real p hp
  obtain ⟨y, hyA, hyB⟩ := logp_real q hq
  refine ⟨∑ n, (x n - y n) * (Real.exp (x n) - Real.exp (y n)), ?_, ?_⟩
  · unfold rowA
    rw [coe_sum]
    refine Finset.sum_congr rfl fun n _ => ?_
    rw [hxA n, hyA n, Ideal.exp_coe, Ideal.exp_coe, ← EReal.coe_sub, ← EReal.coe_sub, ← EReal.coe_mul]
  · unfold rowB
    rw [ofBits_half]
    have e1 : ∀ n, Ideal.exp (logpB p n) * (logpB p n - ((1 / 2 : ℝ) : EReal) * (logpB p n + logpB q n))
        = ((Real.exp (x n) * (x n - 1 / 2 * (x n + y n)) : ℝ) : EReal) := fun n => by
      rw [hxB n, hyB n, Ideal.exp_coe, ← EReal.coe_add, ← EReal.coe_mul, ← EReal.coe_sub, ← EReal.coe_mul]
    have e2 : ∀ n, Ideal.exp (logpB q n) * (logpB q n - ((1 / 2 : ℝ) : EReal) * (logpB p n + logpB q n))
        = ((Real.exp (y n) * (y n - 1 / 2 * (x n + y n)) : ℝ) : EReal) := fun n => by
      rw [hxB n, hyB n, Ideal.exp_coe, ← EReal.coe_add, ← EReal.coe_mul, ← EReal.coe_sub, ← EReal.coe_mul]
    rw [Finset.sum_congr rfl fun n _ => e1 n, Finset.sum_congr rfl fun n _ => e2 n, ← coe_sum, ← coe_sum,
      ← EReal.coe_add, ← Finset.sum_add_distrib, Finset.sum_div]
    refine congrArg _ (Finset.sum_congr rfl fun n _ => ?_)
    ring

end Cert.Jsd

end
-- ==== Proof.JsdRows.lean ====
/-
  The log-probabilities of the rows of a matrix, and the divergence of two matrices row by row, as a kernel body spells
  them with vector operations, read at an index over generic extents.

  For an [a, n] matrix X the body takes the rows' maxima from the word of -infinity (a vector, cast to a column), the
  exponentials of X less the stretched maxima, their row sums from the zero word (cast to a column), the logarithm of
  that column, adds the column of maxima, stretches the sum back over the matrix and subtracts it from X. At (i, j)
  that is the score less (the row's peak plus the logarithm of the row's mass): the log-probability in its first
  spelling. For two matrices X, Y the body then sums, along each row, the product of the difference of the
  log-probabilities and the difference of their exponentials: at i, the one-sum divergence of the rows i of X and Y.
-/
import Idealize.ShloMosaic.Lib.ValueIdx
import Idealize.ShloMosaic.Lib.Pipeline.Value
import Idealize.ShloMosaic.PureOps.Ideal.Laws
import proofs.«110897_j6786048328246_1_alg».proof.Proof.LibRowSoftmax
import proofs.«110897_j6786048328246_1_alg».proof.Proof.JsdLaw

noncomputable section

open scoped BigOperators

namespace Cert.Jsd.Rows

open Idealize.ShloMosaic Idealize.ShloMosaic.ValueIdx Idealize.ShloMosaic.RowSoftmax Cert.SoftmaxSum

variable {a n : ℕ}

/-- The rows' log-probabilities as the body spells them. -/
def logpRows (X : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  subf X (broadcastTo ⟨2, ![a, n]⟩
    (addf (shapeCast ⟨2, ![a, 1]⟩ (multiReduction .maximumf [1] ⟨1, ![a]⟩ X 0xFF800000#32 hr hφ hmax) hc)
      (log (shapeCast ⟨2, ![a, 1]⟩
        (multiReduction .add [1] ⟨1, ![a]⟩ (expRows X hr hφ hmax hc hb) 0x00000000#32 hr hφ hadd) hc))) hb)

/-- Read at (i, j): the score less the sum of the row's peak and the logarithm of the row's mass. -/
theorem logpRows_apply (X : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    logpRows X hr hφ hmax hadd hc hb (ix2 i j) = Cert.Jsd.logpA (fun j' : Fin n => X (ix2 i j')) j := by
  unfold logpRows
  refine (subf_apply _ _ _).trans ?_
  unfold Cert.Jsd.logpA
  refine congrArg (X (ix2 i j) - ·) ?_
  refine (ColumnOps.broadcastTo_col_apply _ hb i j).trans ?_
  refine (addf_apply _ _ _).trans ?_
  refine congrArg₂ (· + ·) ?_ ?_
  · refine (RowNormalize.shapeCast_vec_col_apply _ hc i 0).trans ?_
    refine (ColumnOps.rowMax_single X hr hφ hmax (ix1 i)).trans ?_
    show (Finset.univ : Finset (Fin n)).fold max ⊥ (X ∘ hr.lift (ix1 i)) = _
    unfold Cert.SoftmaxSum.peak
    exact congrArg (fun f => Finset.fold max ⊥ f (Finset.univ : Finset (Fin n)))
      (funext fun k => congrArg X (RowNormalize.lift_row hr i k))
  · show Ideal.log (shapeCast ⟨2, ![a, 1]⟩
        (multiReduction .add [1] ⟨1, ![a]⟩ (expRows X hr hφ hmax hc hb) 0x00000000#32 hr hφ hadd) hc (ix2 i (0 : Fin 1))) = _
    refine congrArg Ideal.log ?_
    refine (RowNormalize.shapeCast_vec_col_apply _ hc i 0).trans ?_
    refine (ColumnOps.rowSum_single _ hr hφ hadd (ix1 i)).trans ?_
    unfold Cert.SoftmaxSum.mass Cert.SoftmaxSum.weight
    refine Finset.sum_congr rfl fun (k : Fin n) _ => ?_
    rw [RowNormalize.lift_row hr i k, expRows_apply]
    rfl

/-- The divergence of the rows of two matrices as the body spells it: along each row, the sum of the products of the
    difference of the log-probabilities and the difference of their exponentials. -/
def divRows (X Y : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨1, ![a]⟩ .f32 :=
  multiReduction .add [1] ⟨1, ![a]⟩
    (mulf (subf (logpRows X hr hφ hmax hadd hc hb) (logpRows Y hr hφ hmax hadd hc hb))
      (subf (exp (logpRows X hr hφ hmax hadd hc hb)) (exp (logpRows Y hr hφ hmax hadd hc hb))))
    0x00000000#32 hr hφ hadd

/-- Read at i: the one-sum divergence of the rows i of the two matrices. -/
theorem divRows_apply (X Y : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (i : Fin a) :
    divRows X Y hr hφ hmax hadd hc hb (ix1 i)
      = Cert.Jsd.rowA (fun j : Fin n => X (ix2 i j)) (fun j : Fin n => Y (ix2 i j)) := by
  unfold divRows
  refine (ColumnOps.rowSum_single _ hr hφ hadd (ix1 i)).trans ?_
  unfold Cert.Jsd.rowA
  refine Finset.sum_congr rfl fun (k : Fin n) _ => ?_
  rw [RowNormalize.lift_row hr i k]
  show (logpRows X hr hφ hmax hadd hc hb (ix2 i k) - logpRows Y hr hφ hmax hadd hc hb (ix2 i k))
      * (Ideal.exp (logpRows X hr hφ hmax hadd hc hb (ix2 i k)) - Ideal.exp (logpRows Y hr hφ hmax hadd hc hb (ix2 i k))) = _
  rw [logpRows_apply, logpRows_apply]

end Cert.Jsd.Rows

end
-- ==== Proof.JsdPay.lean ====
/-
  What the kernel body stores, read at an index at the extended reals.

  The body's last store writes, into the one-entry output block, the block's previous entry plus the tile's value;
  at a first tile it has just stored the zero word there. The tile's value is the sum, over the sixteen rows of the
  tile, of the row's divergence times the row's weight: the divergence of the rows of the two [16, 32000] blocks as
  the body spells it (the rows' log-probabilities from their maxima and the logarithms of their masses, then one sum
  per row of the products of the differences), cast to a column, times the weights' column, summed along the rows.
  The blocks come with a leading unit axis, dropped by a shape cast: row r, entry v of the matrix is entry (0, r, v)
  of the block.
-/
import proofs.«110897_j6786048328246_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110897_j6786048328246_1_alg».proof.Proof.JsdRows

noncomputable section

open scoped BigOperators

namespace Cert.KernelIdeal.Pay

open Idealize.ShloMosaic Idealize.ShloMosaic.ValueIdx Cert.KernelIdeal Cert.KernelIdeal.Gen

variable [Cert.KernelIdeal.Facts]

/-- The one index of a [1, 1, 1] array is at row-major position 0. -/
theorem rowMajor_111 (y : S1x1x1.Idx) : (S1x1x1.rowMajor y).val = 0 := by
  have h0 : (y 0).val < 1 := (y 0).isLt
  have h1 : (y 1).val < 1 := (y 1).isLt
  have h2 : (y 2).val < 1 := (y 2).isLt
  rw [Shape.rowMajor_val_three]
  show ((y 0).val * 1 + (y 1).val) * 1 + (y 2).val = 0
  omega

/-- The index (0, 0) of a [1, 1] array is at row-major position 0. -/
theorem rowMajor_11 : (S1x1.rowMajor (ix2 (0 : Fin 1) (0 : Fin 1))).val = 0 := by
  rw [Shape.rowMajor_val_two]
  rfl

/-- The index 0 of a [1] array is at row-major position 0. -/
theorem rowMajor_1 : (S1.rowMajor (ix1 (0 : Fin 1))).val = 0 := by
  rw [Shape.rowMajor_val_one]
  rfl

/-- The accumulating store's value: the block's previous entry plus the tile's value. -/
theorem pay1_apply (v39 : FVec Ideal S1 .f32) (v41 : Vec Ideal S1x1x1 .f32) (y : S1x1x1.Idx) :
    k0_pay1 (F := Ideal) v39 v41 y = v41 y + v39 (ix1 (0 : Fin 1)) := by
  show shapeCast S1x1x1 (addf (shapeCast S1x1 v41 shapeCasts_S1x1x1_S1x1) (shapeCast S1x1 v39 shapeCasts_S1_S1x1))
    shapeCasts_S1x1_S1x1x1 y = _
  refine (shapeCast_apply _ shapeCasts_S1x1_S1x1x1 y (ix2 (0 : Fin 1) (0 : Fin 1)) (rowMajor_11.trans (rowMajor_111 y).symm)).trans ?_
  refine (addf_apply _ _ _).trans ?_
  refine congrArg₂ (· + ·) ?_ ?_
  · exact shapeCast_apply v41 shapeCasts_S1x1x1_S1x1 _ y ((rowMajor_111 y).trans rowMajor_11.symm)
  · exact shapeCast_apply v39 shapeCasts_S1_S1x1 _ (ix1 (0 : Fin 1)) (rowMajor_1.trans rowMajor_11.symm)

/-- The resetting store's value: zero. -/
theorem pay2_apply (y : S1x1x1.Idx) : k0_pay2 (F := Ideal) y = 0 := by
  show shapeCast S1x1x1 (broadcast S1x1 (Scalar.ofBits (F := Ideal) .f32 0x00000000#32)) shapeCasts_S1x1_S1x1x1 y = _
  refine (shapeCast_apply _ shapeCasts_S1x1_S1x1x1 y (ix2 (0 : Fin 1) (0 : Fin 1)) (rowMajor_11.trans (rowMajor_111 y).symm)).trans ?_
  show Ideal.ofBits .f32 0x00000000#32 = 0
  exact Ideal.ofBits_zero_f32

/-- The tile's value as the generic row operations: the body's text with its intermediate names folded. -/
theorem pay3_eq (x0 x1 : Vec Ideal S1x16x32000 .f32) (x2 : Vec Ideal S1x16x1 .f32) :
    k0_pay3 (F := Ideal) x0 x1 x2 = multiReduction .add [0] S1
      (mulf (shapeCast S16x1 (Cert.Jsd.Rows.divRows (shapeCast S16x32000 x0 shapeCasts_S1x16x32000_S16x32000)
          (shapeCast S16x32000 x1 shapeCasts_S1x16x32000_S16x32000) reduces_S16x32000_S16 (.inl rfl) rfl rfl
          shapeCasts_S16_S16x1 broadcasts_S16x1_S16x32000) shapeCasts_S16_S16x1)
        (shapeCast S16x1 x2 shapeCasts_S1x16x1_S16x1)) 0x00000000#32 reduces_S16x1_S1 (.inl rfl) rfl := rfl

/-- The tile's value: the sum over the tile's sixteen rows of the row's divergence times the row's weight. -/
theorem pay3_apply (x0 x1 : Vec Ideal S1x16x32000 .f32) (x2 : Vec Ideal S1x16x1 .f32) (j : S1.Idx) :
    k0_pay3 (F := Ideal) x0 x1 x2 j
      = ∑ r : Fin 16, Cert.Jsd.rowA (fun v : Fin 32000 => x0 (ix3 (0 : Fin 1) r v)) (fun v : Fin 32000 => x1 (ix3 (0 : Fin 1) r v))
          * x2 (ix3 (0 : Fin 1) r (0 : Fin 1)) := by
  rw [pay3_eq]
  refine (Ideal.multiReduction_add_total _ 0x00000000#32 reduces_S16x1_S1
    (fun b => by match b with | ⟨0, _⟩ => rfl) (.inl rfl) rfl j).trans ?_
  rw [sum_idx2]
  refine Finset.sum_congr rfl fun (r : Fin 16) _ => ?_
  rw [Fin.sum_univ_one]
  refine (mulf_apply _ _ _).trans ?_
  refine congrArg₂ (· * ·) ?_ ?_
  · refine (RowNormalize.shapeCast_vec_col_apply _ shapeCasts_S16_S16x1 r 0).trans ?_
    refine (Cert.Jsd.Rows.divRows_apply _ _ reduces_S16x32000_S16 (.inl rfl) rfl rfl shapeCasts_S16_S16x1
      broadcasts_S16x1_S16x32000 r).trans ?_
    exact congrArg₂ Cert.Jsd.rowA
      (funext fun v : Fin 32000 => shapeCast_1ab_ab_apply x0 shapeCasts_S1x16x32000_S16x32000 r v)
      (funext fun v : Fin 32000 => shapeCast_1ab_ab_apply x1 shapeCasts_S1x16x32000_S16x32000 r v)
  · exact shapeCast_1ab_ab_apply x2 shapeCasts_S1x16x1_S16x1 r (0 : Fin 1)

end Cert.KernelIdeal.Pay

end
-- ==== Proof.JsdChain.lean ====
/-
  What the output block holds after each grid point: the running sum of the tiles' values.

  The grid has 2 x 128 points; point t works on batch t / 128 and on the tile t % 128 of that batch's 2048 rows. At a
  first tile (t % 128 = 0) the body stores zero into the one-entry output block and then adds the tile's value to it; at
  every other point it adds the tile's value to what the point before left. So after point t the block holds the sum
  of the values of the tiles t - t % 128, ..., t: by induction on the point.
-/
import proofs.«110897_j6786048328246_1_alg».proof.Proof.Gen.KernelIdeal.Frame
import Idealize.ShloMosaic.Lib.Pipeline.Value
import Idealize.ShloMosaic.Lib.Tactic
import proofs.«110897_j6786048328246_1_alg».proof.Proof.JsdPay

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

theorem hz3 : (![0, 0, 0] : Fin 3 → Nat) = fun _ => 0 := funext fun a => by fin_cases a <;> rfl

section AnyValues
variable {F : FTy → Type} [FloatOps F]

/-- At a point that is not a first tile the body leaves, in the output block holding `xo`, the accumulating store's value
    of the tile's value and `xo`. -/
theorem out_B (c : Dev nD) (i : grid0.Coords) (a2 : Memref sig .tc .vmem S1x16x32000 .f32) (h2 : a2.IsWhole)
    (a3 : Memref sig .tc .vmem S1x16x32000 .f32) (h3 : a3.IsWhole) (a4 : Memref sig .tc .vmem S1x16x1 .f32) (h4 : a4.IsWhole)
    (a5 : Memref sig .tc .vmem S1x1x1 .f32) (h5 : a5.IsWhole) (hc : ¬cond0_0 i)
    (x0 x1 : Vec F S1x16x32000 .f32) (x2 : Vec F S1x16x1 .f32) (xo : Vec F S1x1x1 .f32) :
    out0_B_3 c i a2 h2 a3 h3 a4 h4 a5 h5 hc x0 x1 x2 xo = k0_pay1 (k0_pay3 x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S1x16x32000) hz3, View.ld_unit_zero (S := S1x16x1) hz3, View.ld_unit_zero (S := S1x1x1) hz3]

/-- At a first tile the body stores zero, reads it back, and leaves the accumulating store's value of the tile's value
    and that zero. -/
theorem out_A (c : Dev nD) (i : grid0.Coords) (a2 : Memref sig .tc .vmem S1x16x32000 .f32) (h2 : a2.IsWhole)
    (a3 : Memref sig .tc .vmem S1x16x32000 .f32) (h3 : a3.IsWhole) (a4 : Memref sig .tc .vmem S1x16x1 .f32) (h4 : a4.IsWhole)
    (a5 : Memref sig .tc .vmem S1x1x1 .f32) (h5 : a5.IsWhole) (hc : cond0_0 i)
    (x0 x1 : Vec F S1x16x32000 .f32) (x2 : Vec F S1x16x1 .f32) :
    out0_A_3 c i a2 h2 a3 h3 a4 h4 a5 h5 hc x0 x1 x2 = k0_pay1 (k0_pay3 x0 x1 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x16x32000) hz3, View.ld_unit_zero (S := S1x16x1) hz3, View.ld_unit_zero (S := S1x1x1) hz3]

end AnyValues

variable (m : (ℓ : Loc nD τ sig) → Buf (Elt Ideal) ℓ) (ρ : Dev nD → PrngReg)

/-- The value of the tile at grid point `t`: the tile's payload of the three input blocks at the point. -/
def tileAt (c : Dev nD) (t : Fin cfg0.N) : EReal :=
  k0_pay3 (F := Ideal) (iblk m c 0 t) (iblk m c 1 t) (iblk m c 2 t) (ix1 (0 : Fin 1))

/-- The same by the point's number, zero past the grid. -/
def tileN (c : Dev nD) (n : ℕ) : EReal := if h : n < cfg0.N then tileAt m c ⟨n, h⟩ else 0

theorem tileN_of_lt (c : Dev nD) (n : ℕ) (h : n < cfg0.N) : tileN m c n = tileAt m c ⟨n, h⟩ := dif_pos h

/-- A first tile's contents, at the block's one index: the tile's value. -/
theorem first_apply (x0 x1 : Vec Ideal S1x16x32000 .f32) (x2 : Vec Ideal S1x16x1 .f32) (y : S1x1x1.Idx) :
    k0_pay1 (F := Ideal) (k0_pay3 x0 x1 x2) (k0_pay2 (F := Ideal)) y = k0_pay3 (F := Ideal) x0 x1 x2 (ix1 (0 : Fin 1)) := by
  rw [Pay.pay1_apply, Pay.pay2_apply, zero_add]

/-- THE RUNNING SUM: after point `n` the output block holds the sum of the tiles from the batch's first tile to `n`. -/
theorem outsAt_eq (c : Dev nD) : ∀ (n : ℕ) (h : n < cfg0.N) (y : S1x1x1.Idx),
    outsAt0 m c n h y = ∑ j ∈ Finset.range (n % 128 + 1), tileN m c (n - n % 128 + j)
  | 0, h, y => by
    rw [outsAt0_A m c ⟨0, h⟩ rfl, out_A, first_apply]
    show _ = ∑ j ∈ Finset.range 1, tileN m c (0 + j)
    rw [Finset.sum_range_one, tileN_of_lt m c (0 + 0) h]
    rfl
  | n + 1, h, y => by
    by_cases h0 : (n + 1) % 128 = 0
    · rw [outsAt0_A m c ⟨n + 1, h⟩ h0, out_A, first_apply, h0]
      show _ = ∑ j ∈ Finset.range 1, tileN m c (n + 1 - 0 + j)
      rw [Finset.sum_range_one, tileN_of_lt m c (n + 1 - 0 + 0) h]
      rfl
    · rw [outsAt0_B m c ⟨n + 1, h⟩ h0, out_B, Pay.pay1_apply]
      show outsAt0 m c n _ y + _ = _
      rw [outsAt_eq c n (Nat.lt_of_succ_lt h) y]
      have e1 : (n + 1) % 128 = n % 128 + 1 := by omega
      have e2 : n + 1 - (n + 1) % 128 = n - n % 128 := by omega
      have e3 : n - n % 128 + (n % 128 + 1) = n + 1 := by omega
      rw [e2, e1, Finset.sum_range_succ (n := n % 128 + 1), e3, tileN_of_lt m c (n + 1) h]
      rfl

end Cert.KernelIdeal.Val

end
-- ==== Proof.JsdTotal.lean ====
/-
  The two numerators, as functions of the three argument arrays, and the law that joins them.

  For score arrays P, Q of shape [2, 2048, 32000] and a weight array W of shape [2, 2048] write d(b, s) for the one-sum
  divergence of the rows (b, s) of P and Q and e(b, s) for the two-sum one. One program forms, per batch b and per tile
  k of sixteen rows, the sum over the tile's rows of d times the weight, sums the tiles and the batches, and scales by
  the word of 0.25; the other sums e times the weight over all (b, s) and scales by the word of 0.5. When every score
  and every weight is a real number the two agree: e = d / 2 row by row (the row law), the 128 tiles of sixteen
  consecutive rows are the 2048 rows (16 k + r runs over them once), and over the reals
  (1/4) (sum of d w) = (1/2) (sum of (d / 2) w).
-/
import Idealize.ShloMosaic.Lib.ValueIdx
import Idealize.ShloMosaic.PureOps.Ideal
import Idealize.ShloMosaic.PureOps.Ideal.Laws
import proofs.«110897_j6786048328246_1_alg».proof.Proof.LibReal
import proofs.«110897_j6786048328246_1_alg».proof.Proof.JsdLaw

noncomputable section

open scoped BigOperators

namespace Cert.Jsd

open Idealize.ShloMosaic Idealize.ShloMosaic.ValueIdx Cert.LibReal

/-- Row `r` of tile `k`: row `16 k + r` of the 2048. -/
def tileRow (k : Fin 128) (r : Fin 16) : Fin 2048 := ⟨16 * k.val + r.val, by have := k.isLt; have := r.isLt; omega⟩

/-- The 128 tiles of sixteen consecutive rows are the 2048 rows. -/
theorem sum_tiles {M : Type*} [AddCommMonoid M] (f : Fin 2048 → M) :
    ∑ k : Fin 128, ∑ r : Fin 16, f (tileRow k r) = ∑ s : Fin 2048, f s := by
  rw [← Fintype.sum_prod_type' (fun (k : Fin 128) (r : Fin 16) => f (tileRow k r)),
    ← Equiv.sum_comp (finProdFinEquiv (m := 128) (n := 16)) f]
  refine Finset.sum_congr rfl fun x _ => congrArg f (Fin.ext ?_)
  show 16 * x.1.val + x.2.val = (finProdFinEquiv x).val
  rw [finProdFinEquiv_apply_val]
  omega

abbrev Scores : Type := (⟨3, ![2, 2048, 32000]⟩ : Shape).Idx → EReal
abbrev Weights : Type := (⟨2, ![2, 2048]⟩ : Shape).Idx → EReal

/-- The one-sum divergence of the rows (b, s). -/
def divA (P Q : Scores) (b : Fin 2) (s : Fin 2048) : EReal :=
  rowA (fun v : Fin 32000 => P (ix3 b s v)) (fun v : Fin 32000 => Q (ix3 b s v))

/-- The two-sum divergence of the rows (b, s). -/
def divB (P Q : Scores) (b : Fin 2) (s : Fin 2048) : EReal :=
  rowB (fun v : Fin 32000 => P (ix3 b s v)) (fun v : Fin 32000 => Q (ix3 b s v))

/-- The value of tile `k` of batch `b`: the weighted one-sum divergences of its sixteen rows. -/
def tileVal (P Q : Scores) (W : Weights) (b : Fin 2) (k : Fin 128) : EReal :=
  ∑ r : Fin 16, divA P Q b (tileRow k r) * W (ix2 b (tileRow k r))

/-- The first numerator: a quarter of the tiles' values summed over tiles and batches. -/
def numA (P Q : Scores) (W : Weights) : EReal :=
  Ideal.ofBits .f32 0x3E800000#32 * ∑ b : Fin 2, ∑ k : Fin 128, tileVal P Q W b k

/-- The second numerator: half the weighted two-sum divergences summed over all rows. -/
def numB (P Q : Scores) (W : Weights) : EReal :=
  Ideal.ofBits .f32 0x3F000000#32 * ∑ j : (⟨2, ![2, 2048]⟩ : Shape).Idx, divB P Q (j 0) (j 1) * W j

/-- The count both programs divide by: the larger of the sum of the weights and the word of 1. -/
def cnt (W : Weights) : EReal := max (∑ j : (⟨2, ![2, 2048]⟩ : Shape).Idx, W j) (Ideal.ofBits .f32 0x3F800000#32)

/-- THE LAW: for real scores and real weights the two numerators are equal. -/
theorem numA_eq_numB (P Q : Scores) (W : Weights) (hP : ∀ i, IsReal (P i)) (hQ : ∀ i, IsReal (Q i)) (hW : ∀ j, IsReal (W j)) :
    numA P Q W = numB P Q W := by
  have hrow : ∀ (b : Fin 2) (s : Fin 2048), ∃ A : ℝ, divA P Q b s = (A : EReal) ∧ divB P Q b s = ((A / 2 : ℝ) : EReal) :=
    fun b s => row_real _ _ (fun v => hP _) (fun v => hQ _)
  choose a haA haB using hrow
  choose w hw using hW
  have eA : numA P Q W = (((1 / 4 : ℝ) * ∑ b : Fin 2, ∑ s : Fin 2048, a b s * w (ix2 b s) : ℝ) : EReal) := by
    unfold numA tileVal
    rw [ofBits_quarter, EReal.coe_mul, coe_sum]
    refine congrArg (((1 / 4 : ℝ) : EReal) * ·) (Finset.sum_congr rfl fun b _ => ?_)
    rw [← sum_tiles (fun s : Fin 2048 => a b s * w (ix2 b s)), coe_sum]
    refine Finset.sum_congr rfl fun k _ => ?_
    rw [coe_sum]
    refine Finset.sum_congr rfl fun r _ => ?_
    rw [haA, hw, EReal.coe_mul]
  have eB : numB P Q W = (((1 / 2 : ℝ) * ∑ b : Fin 2, ∑ s : Fin 2048, a b s / 2 * w (ix2 b s) : ℝ) : EReal) := by
    unfold numB
    rw [ofBits_half, EReal.coe_mul, sum_idx2, coe_sum]
    refine congrArg (((1 / 2 : ℝ) : EReal) * ·) (Finset.sum_congr rfl fun b _ => ?_)
    rw [coe_sum]
    refine Finset.sum_congr rfl fun s _ => ?_
    show divB P Q b s * W (ix2 b s) = _
    rw [haB, hw, EReal.coe_mul]
  rw [eA, eB]
  refine congrArg _ ?_
  rw [Finset.mul_sum, Finset.mul_sum]
  refine Finset.sum_congr rfl fun b _ => ?_
  rw [Finset.mul_sum, Finset.mul_sum]
  refine Finset.sum_congr rfl fun s _ => ?_
  ring

end Cert.Jsd

end
-- ==== Proof.JsdTiles.lean ====
/-
  The tile at a grid point, read off the argument arrays.

  Point t of the 2 x 128 grid stages block (t / 128, t % 128, 0) of each input: sixteen rows, from row 16 (t % 128), of
  batch t / 128. Entry (0, r, v) of the scores' block is entry (t / 128, 16 (t % 128) + r, v) of the scores' array, and
  entry (0, r, 0) of the weights' block is the weight of that row. The weights' array is what the host lines before the
  launch leave: the mask converted to a float and given a trailing unit axis. So the tile's value at point t is the
  specification's value of tile t % 128 of batch t / 128.
-/
import proofs.«110897_j6786048328246_1_alg».proof.Proof.Gen.KernelIdeal.Frame
import Idealize.ShloMosaic.Lib.Pipeline.Value
import Idealize.ShloMosaic.Lib.StableHlo.Run
import Idealize.ShloMosaic.Lib.Tactic
import proofs.«110897_j6786048328246_1_alg».proof.Proof.JsdChain
import proofs.«110897_j6786048328246_1_alg».proof.Proof.JsdTotal

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The printed index maps, decided over the grid: the inputs' block index at point t is (t / 128, t % 128, 0), the
    output's (t / 128, 0, 0). -/
theorem idx_facts : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0
    ∧ win0_2.index t (0 : Fin 3) = t.val / 128 ∧ win0_2.index t (1 : Fin 3) = t.val % 128 ∧ win0_2.index t (2 : Fin 3) = 0
    ∧ win0_3.index t (0 : Fin 3) = t.val / 128 ∧ win0_3.index t (1 : Fin 3) = 0 ∧ win0_3.index t (2 : Fin 3) = 0 :=
  (by decide +kernel : ∀ t : Fin grid0.N, _)

theorem N_256 : cfg0.N = 256 := N_0

/-- The batch of point t. -/
def bat (t : Fin cfg0.N) : Fin 2 := ⟨t.val / 128, by have := lt_of_lt_of_eq t.isLt N_256; omega⟩

/-- The tile of point t within its batch. -/
def til (t : Fin cfg0.N) : Fin 128 := ⟨t.val % 128, by omega⟩

variable (m : (ℓ : Loc nD τ sig) → Buf (Elt Ideal) ℓ)

/-- Entry (0, r, v) of the first scores' block at point t is entry (batch, 16 tile + r, v) of the first scores' array. -/
theorem iblk0_apply (c : Dev nD) (t : Fin cfg0.N) (r : Fin 16) (v : Fin 32000) :
    (iblk m c 0 t : Vec Ideal S1x16x32000 .f32) (ix3 (0 : Fin 1) r v)
      = V m c main_arg0 (ix3 (bat t) (Cert.Jsd.tileRow (til t) r) v) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 128; rw [e0]; omega
  | ⟨1, _⟩ => show win0_0.index t (1 : Fin 3) * 16 + 1 * r.val = 16 * (t.val % 128) + r.val; rw [e1]; omega
  | ⟨2, _⟩ => show win0_0.index t (2 : Fin 3) * 32000 + 1 * v.val = v.val; rw [e2]; omega

/-- The same for the second scores' array. -/
theorem iblk1_apply (c : Dev nD) (t : Fin cfg0.N) (r : Fin 16) (v : Fin 32000) :
    (iblk m c 1 t : Vec Ideal S1x16x32000 .f32) (ix3 (0 : Fin 1) r v)
      = V m c main_arg1 (ix3 (bat t) (Cert.Jsd.tileRow (til t) r) v) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val / 128; rw [e0]; omega
  | ⟨1, _⟩ => show win0_1.index t (1 : Fin 3) * 16 + 1 * r.val = 16 * (t.val % 128) + r.val; rw [e1]; omega
  | ⟨2, _⟩ => show win0_1.index t (2 : Fin 3) * 32000 + 1 * v.val = v.val; rw [e2]; omega

/-- Entry (0, r, 0) of the weights' block at point t is entry (batch, 16 tile + r, 0) of the weights' array. -/
theorem iblk2_apply (c : Dev nD) (t : Fin cfg0.N) (r : Fin 16) :
    (iblk m c 2 t : Vec Ideal S1x16x1 .f32) (ix3 (0 : Fin 1) r (0 : Fin 1))
      = V m c main_v1 (ix3 (bat t) (Cert.Jsd.tileRow (til t) r) (0 : Fin 1)) := by
  obtain ⟨-, -, -, -, -, -, e0, e1, e2, -⟩ := idx_facts t
  unfold iblk
  rw [View.read_apply]
  show V m c main_v1 _ = V m c main_v1 _
  congr 1
  funext a
  apply Fin.ext
  match a with
  | ⟨0, _⟩ => show win0_2.index t (0 : Fin 3) * 1 + 1 * 0 = t.val / 128; rw [e0]; omega
  | ⟨1, _⟩ => show win0_2.index t (1 : Fin 3) * 16 + 1 * r.val = 16 * (t.val % 128) + r.val; rw [e1]; omega
  | ⟨2, _⟩ => show win0_2.index t (2 : Fin 3) * 1 + 1 * 0 = 0; rw [e2]

/-- The mask as floats: what both programs weigh the rows by. -/
def weights (c : Dev nD) : Cert.Jsd.Weights := uitofp (F := Ideal) .f32 (m ((c : Thread nD τ).loc main_arg2))

/-- The weights' array as the host lines before the launch leave it: the mask converted, with a trailing unit axis. -/
theorem V_main_v1 (c : Dev nD) :
    (V m c main_v1 : S2x2048x1.Idx → EReal)
      = broadcastInDim S2x2048x1 ![0, 1] bcast_S2x2048_S2x2048x1_0_1 (weights m c) := by
  show StableHlo.after hostOps0 (fun b => m (c, b)) (Proc.devRef .tc main_v1) = _
  after_results
  rfl

/-- Read at (b, s, 0): the weight of row (b, s). -/
theorem V_main_v1_apply (c : Dev nD) (b : Fin 2) (s : Fin 2048) :
    V m c main_v1 (ix3 b s (0 : Fin 1)) = weights m c (ix2 b s) := by
  have e := congrFun (V_main_v1 m c) (ix3 b s (0 : Fin 1))
  refine e.trans ?_
  refine broadcastInDim_apply _ bcast_S2x2048_S2x2048x1_0_1 (weights m c) (ix3 b s (0 : Fin 1)) (ix2 b s) (fun a => ?_)
  match a with
  | ⟨0, _⟩ => show b.val = if (2 : Nat) = 1 then 0 else b.val; rw [if_neg (by decide)]
  | ⟨1, _⟩ => show s.val = if (2048 : Nat) = 1 then 0 else s.val; rw [if_neg (by decide)]

/-- THE TILE AT A POINT is the specification's tile (batch t / 128, tile t % 128) of the argument arrays. -/
theorem tileAt_eq (c : Dev nD) (t : Fin cfg0.N) :
    tileAt m c t = Cert.Jsd.tileVal (V m c main_arg0) (V m c main_arg1) (weights m c) (bat t) (til t) := by
  unfold tileAt Cert.Jsd.tileVal Cert.Jsd.divA
  refine (Pay.pay3_apply (iblk m c 0 t) (iblk m c 1 t) (iblk m c 2 t) (ix1 (0 : Fin 1))).trans ?_
  refine Finset.sum_congr rfl fun r _ => ?_
  refine congrArg₂ (· * ·) ?_ ?_
  · exact congrArg₂ Cert.Jsd.rowA (funext fun v => iblk0_apply m c t r v) (funext fun v => iblk1_apply m c t r v)
  · exact (iblk2_apply m c t r).trans (V_main_v1_apply m c (bat t) (Cert.Jsd.tileRow (til t) r))

end Cert.KernelIdeal.Val

end
-- ==== Proof.JsdKernelVal.lean ====
/-
  The kernel's result, as a function of the argument arrays.

  The output array has one entry per batch. Its block is written back after the batch's last tile (points 127 and 255),
  when it holds the sum of the batch's 128 tiles; the two blocks cover the array. The host lines after the launch sum
  the array, scale by the word of 0.25 and divide by the count the host lines before the launch left: the larger of the
  sum of the weights and the word of 1.
-/
import proofs.«110897_j6786048328246_1_alg».proof.Proof.Gen.KernelIdeal.Frame
import Idealize.ShloMosaic.Lib.Pipeline.Value
import Idealize.ShloMosaic.Lib.StableHlo.Run
import Idealize.ShloMosaic.Lib.Tactic
import proofs.«110897_j6786048328246_1_alg».proof.Proof.JsdTiles

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The output array: per batch, the sum of the batch's 128 tiles. -/
def outArr (c : Dev nD) : S2x1x1.Idx → EReal := fun i => ∑ j ∈ Finset.range 128, tileN m c (128 * (i 0).val + j)

/-- What a write-back writes: at a batch's last tile the block holds the batch's entry of the output array. -/
theorem flushed_eq (c : Dev nD) (t : Fin cfg0.N) (hf : (cfg0.win 3).flush t = true) :
    (dats m 0 c).flushed 3 t = ((cfg0.win 3).blk t).view.read (Elt Ideal) (outArr m c) := by
  have hN := N_256
  have h127 : t.val % 128 = 127 := (flush0_3 t).mp hf
  obtain ⟨-, -, -, -, -, -, -, -, -, e0, -, -⟩ := idx_facts t
  show (cfg0.win 3).cut (grid0.coords t) ((dats m 0 c).after 3 t) = _
  rw [after0_3]
  funext y
  show outsAt0 m c t.val t.isLt y = outArr m c (((cfg0.win 3).blk t).view.emb y)
  rw [outsAt_eq m c t.val t.isLt y, h127]
  unfold outArr
  have hy : (y 0).val < 1 := (y 0).isLt
  have he : ((((cfg0.win 3).blk t).view.emb y) 0).val = t.val / 128 := by
    show win0_3.index t (0 : Fin 3) * 1 + 1 * (y 0).val = _
    rw [e0]; omega
  rw [he]
  have e : t.val - 127 = 128 * (t.val / 128) := by omega
  show ∑ j ∈ Finset.range 128, tileN m c (t.val - 127 + j) = _
  rw [e]

/-- An index of the output array is in point t's block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v4).slice (win0_3.rect t)).set ↔ _
  rw [View.set_slice_whole, Rect.mem_set_unit]
  exact Iff.rfl

/-- THE OUTPUT ARRAY after the run. -/
theorem final (c : Dev nD) : (dats m 0 c).arrAt 3 cfg0.N = outArr m c :=
  (dats m 0 c).arrAt_eq_of_cover 3 (outArr m c) (fun t hf => flushed_eq m c t hf) fun i => by
    have hN := N_256
    have hi0 : (i 0).val < 2 := (i 0).isLt
    have hi1 : (i 1).val < 1 := (i 1).isLt
    have hi2 : (i 2).val < 1 := (i 2).isLt
    have hlt : 128 * (i 0).val + 127 < cfg0.N := by omega
    have ht : (⟨128 * (i 0).val + 127, hlt⟩ : Fin cfg0.N).val = 128 * (i 0).val + 127 := rfl
    refine ⟨⟨128 * (i 0).val + 127, hlt⟩, (flush0_3 _).mpr (by rw [ht]; omega), ?_⟩
    rw [mem_blk3]
    obtain ⟨-, -, -, -, -, -, -, -, -, e0, e1, e2⟩ := idx_facts ⟨128 * (i 0).val + 127, hlt⟩
    rw [ht] at e0
    intro a
    match a with
    | ⟨0, _⟩ =>
      show win0_3.index ⟨128 * (i 0).val + 127, hlt⟩ (0 : Fin 3) * 1 ≤ (i 0).val
        ∧ (i 0).val < win0_3.index ⟨128 * (i 0).val + 127, hlt⟩ (0 : Fin 3) * 1 + 1
      rw [e0]; omega
    | ⟨1, _⟩ =>
      show win0_3.index ⟨128 * (i 0).val + 127, hlt⟩ (1 : Fin 3) * 1 ≤ (i 1).val
        ∧ (i 1).val < win0_3.index ⟨128 * (i 0).val + 127, hlt⟩ (1 : Fin 3) * 1 + 1
      rw [e1]; omega
    | ⟨2, _⟩ =>
      show win0_3.index ⟨128 * (i 0).val + 127, hlt⟩ (2 : Fin 3) * 1 ≤ (i 2).val
        ∧ (i 2).val < win0_3.index ⟨128 * (i 0).val + 127, hlt⟩ (2 : Fin 3) * 1 + 1
      rw [e2]; omega

/-- The count as the host lines before the launch leave it: the larger of the sum of the weights' array and the word of 1. -/
def count (W3 : S2x2048x1.Idx → EReal) : S_.Idx → EReal :=
  maximumf (Host.reduceAdd (F := Ideal) W3 (constant (F := Ideal) S_ .f32 0x00000000#32) reducesTo_S2x2048x1_S_d0_1_2 h_S_)
    (constant (F := Ideal) S_ .f32 0x3F800000#32)

theorem V_main_v3 (c : Dev nD) : (V m c main_v3 : S_.Idx → EReal) = count (V m c main_v1) := by
  rw [V_main_v1]
  show StableHlo.after hostOps0 (fun b => m (c, b)) (Proc.devRef .tc main_v3) = _
  after_results
  rfl

/-- The host lines after the launch, as one function of the output array and the count. -/
def tail (G : S2x1x1.Idx → EReal) (n : S_.Idx → EReal) : S_.Idx → EReal :=
  Host.divf (F := Ideal) (mulf (constant (F := Ideal) S_ .f32 0x3E800000#32)
    (Host.reduceAdd (F := Ideal) G (constant (F := Ideal) S_ .f32 0x00000000#32) reducesTo_S2x1x1_S_d0_1_2 h_S_)) n

/-- The program's result after the host tail. -/
theorem tail_eq (c : Dev nD) :
    Pipeline.afterTail₀ cfgs (dats m) 0 (V0 m) [hostOps1] c main_v7 = tail (outArr m c) (V m c main_v3) := by
  unfold Pipeline.afterTail₀
  show StableHlo.after hostOps1 _ (Proc.devRef .tc main_v7) = _
  after_results
  have e4 : Pipeline.withArrays (cfgs 0).spec c (V0 m c) (fun w => (dats m 0 c).arrAt w (cfgs 0).N) (Proc.devRef .tc main_v4)
      = outArr m c := (Pipeline.withArrays_arr spec0 launch0.win.arr_inj c _ _ 3).trans (final m c)
  have e3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  exact congrArg₂ tail e4 e3

/-- The kernel's result: the host tail of the output array and the count. -/
def result (c : Dev nD) : Buf (Elt Ideal) ((c.tc : Thread nD τ).loc main_v7) := tail (outArr m c) (V m c main_v3)

/-- THE RUN, READ: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Val

end
-- ==== Proof.LibSumIdx3.lean ====
/-
  A sum over the indices of a rank-3 array is the triple sum over its coordinates; with a trailing unit axis, or two, the
  sums over those axes have one term.
-/
import Idealize.ShloMosaic.Lib.ValueIdx

noncomputable section

open scoped BigOperators

namespace Cert.Lib.SumIdx3

open Idealize.ShloMosaic Idealize.ShloMosaic.ValueIdx

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a trailing unit axis: the double sum over the first two coordinates. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  rw [Fin.sum_univ_one]

/-- With two trailing unit axes: the sum over the first coordinate. -/
theorem sum_idx3_unit_unit {M : Type*} [AddCommMonoid M] {n0 : Nat} (f : (⟨3, ![n0, 1, 1]⟩ : Shape).Idx → M) :
    ∑ i, f i = ∑ a : Fin n0, f (ix3 a (0 : Fin 1) (0 : Fin 1)) := by
  rw [sum_idx3_unit]
  refine Finset.sum_congr rfl fun a _ => ?_
  rw [Fin.sum_univ_one]

end Cert.Lib.SumIdx3

end
-- ==== Proof.JsdKernelSpec.lean ====
/-
  The kernel's result, as the specification: the first numerator over the count.

  The host's sum of the output array is the sum over the two batches of the batch's 128 tiles, and the tile at point
  128 b + k is the specification's tile k of batch b. The count the host lines before the launch leave is the larger of
  the word of 1 and the sum of the weights' array, whose trailing unit axis adds nothing: the sum of the weights.
-/
import proofs.«110897_j6786048328246_1_alg».proof.Proof.Gen.KernelIdeal.Frame
import Idealize.ShloMosaic.Lib.Pipeline.Value
import Idealize.ShloMosaic.PureOps.Ideal.Laws
import proofs.«110897_j6786048328246_1_alg».proof.Proof.JsdKernelVal
import proofs.«110897_j6786048328246_1_alg».proof.Proof.LibSumIdx3

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Lib.SumIdx3

/-- The host's sum over every axis, from the zero word, is the sum over every index. -/
theorem hostSum_apply {s : Shape} {axes : List (Fin s.rank)} (y : FVec Ideal s .f32) (h' : s.ReducesTo axes S_) (i : S_.Idx) :
    Host.reduceAdd (F := Ideal) y (constant (F := Ideal) S_ .f32 0x00000000#32) h' h_S_ i = ∑ j : s.Idx, y j := by
  simp only [Host.reduceAdd, Ideal.hostReduceAdd_def]
  refine (Ideal.hostReduceAdd_total h' (fun b => b.elim0) y _ i).trans ?_
  show Ideal.ofBits .f32 0x00000000#32 + _ = _
  rw [Ideal.ofBits_zero_f32, zero_add]

/-- The host tail at its one index: a quarter of the sum of the output array, over the count. -/
theorem tail_apply (G : S2x1x1.Idx → EReal) (n : S_.Idx → EReal) (i : S_.Idx) :
    tail G n i = Ideal.div (Ideal.ofBits .f32 0x3E800000#32 * ∑ j : S2x1x1.Idx, G j) (n i) := by
  unfold tail
  show Ideal.div (Ideal.ofBits .f32 0x3E800000#32
    * Host.reduceAdd (F := Ideal) G (constant (F := Ideal) S_ .f32 0x00000000#32) reducesTo_S2x1x1_S_d0_1_2 h_S_ i) (n i) = _
  rw [hostSum_apply]

/-- The count at its one index: the larger of the sum of the weights' array and the word of 1. -/
theorem count_apply (W3 : S2x2048x1.Idx → EReal) (i : S_.Idx) :
    count W3 i = max (∑ j : S2x2048x1.Idx, W3 j) (Ideal.ofBits .f32 0x3F800000#32) := by
  unfold count
  show max (Host.reduceAdd (F := Ideal) W3 (constant (F := Ideal) S_ .f32 0x00000000#32) reducesTo_S2x2048x1_S_d0_1_2 h_S_ i)
    (Ideal.ofBits .f32 0x3F800000#32) = _
  rw [hostSum_apply]

variable (m : (ℓ : Loc nD τ sig) → Buf (Elt Ideal) ℓ)

/-- The tile at point 128 b + k is the specification's tile k of batch b of the arguments. -/
theorem tile_at (c : Dev nD) (b : Fin 2) (k : Fin 128) :
    tileN m c (128 * b.val + k.val)
      = Cert.Jsd.tileVal (m ((c : Thread nD τ).loc main_arg0)) (m ((c : Thread nD τ).loc main_arg1)) (weights m c) b k := by
  have hN := N_256
  have hb := b.isLt
  have hk := k.isLt
  have hlt : 128 * b.val + k.val < cfg0.N := by omega
  rw [tileN_of_lt m c _ hlt, tileAt_eq, V_main_arg0, V_main_arg1]
  have e1 : bat ⟨128 * b.val + k.val, hlt⟩ = b := Fin.ext (by show (128 * b.val + k.val) / 128 = b.val; omega)
  have e2 : til ⟨128 * b.val + k.val, hlt⟩ = k := Fin.ext (by show (128 * b.val + k.val) % 128 = k.val; omega)
  rw [e1, e2]

/-- THE KERNEL'S RESULT: the first numerator over the count, of the arguments. -/
theorem result_apply (c : Dev nD) (i : S_.Idx) :
    result m c i = Ideal.div
      (Cert.Jsd.numA (m ((c : Thread nD τ).loc main_arg0)) (m ((c : Thread nD τ).loc main_arg1)) (weights m c))
      (Cert.Jsd.cnt (weights m c)) := by
  unfold result
  rw [tail_apply, V_main_v3, count_apply]
  refine congrArg₂ Ideal.div ?_ ?_
  · unfold Cert.Jsd.numA
    refine congrArg (Ideal.ofBits .f32 0x3E800000#32 * ·) ?_
    rw [sum_idx3_unit_unit]
    refine Finset.sum_congr rfl fun b _ => ?_
    unfold outArr
    rw [Finset.sum_range]
    exact Finset.sum_congr rfl fun k _ => tile_at m c b k
  · unfold Cert.Jsd.cnt
    refine congrArg (max · (Ideal.ofBits .f32 0x3F800000#32)) ?_
    rw [sum_idx3_unit, sum_idx2]
    exact Finset.sum_congr rfl fun b _ => Finset.sum_congr rfl fun s _ => V_main_v1_apply m c b s

/-- Every weight is a real number: a bit read as a number. -/
theorem weights_real (c : Dev nD) (j : (⟨2, ![2, 2048]⟩ : Shape).Idx) : Cert.LibReal.IsReal (weights m c j) :=
  ⟨((m ((c : Thread nD τ).loc main_arg2) j).toNat : ℝ), rfl⟩

end Cert.KernelIdeal.Val

end
-- ==== Proof.RefStages.lean ====
/-
  The reference's run, read in three stretches.

  The reference's @main is a straight line of 62 host operations: eighteen that take the first score array to its
  log-softmax (the division by the splat of 1, then the called function's fifteen operations), eighteen that do the same
  for the second, and twenty-six that combine the two log-softmaxes with the mask into the result. The buffers after the
  whole line are the buffers after the third stretch from what the second leaves from what the first leaves. Each stretch
  is read against the stages `val_<buffer>`: the first leaves the first log-softmax `val_main_v2` of the first argument,
  the second `val_main_v5` of the second, and the third, from buffers holding those two, the last stage `val_main_v24`.
  A value written through a typed reference is moved to the buffer's type and back, which is the identity; the reductions are
  kept folded while two terms are compared: the comparison never needs to look inside them.
-/
import proofs.«110897_j6786048328246_1_alg».proof.Proof.RefOps
import proofs.«110897_j6786048328246_1_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The buffers after `l₁ ++ l₂` are the buffers after `l₂` from what `l₁` leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first stretch: the first score array to its log-softmax. -/
abbrev opsA : List (HloOp τ sig (Elt F)) :=
  [ nullary main_cst (constant S_ .f32 0x3F800000#32),
    unary main_cst main_v0 (broadcastInDim S2x2048x32000 ![] bcast_S_S2x2048x32000 : (⟨S_, .f32⟩ : BufTy).Contents (Elt F) → (⟨S2x2048x32000, .f32⟩ : BufTy).Contents (Elt F)),
    binary main_arg0 main_v0 main_v1 (Host.divf : (⟨S2x2048x32000, .f32⟩ : BufTy).Contents (Elt F) → (⟨S2x2048x32000, .f32⟩ : BufTy).Contents (Elt F) → (⟨S2x2048x32000, .f32⟩ : BufTy).Contents (Elt F)),
    TRef.nullary (TRef.of (T := ⟨S_, .f32⟩) main_call0_cst) (constant S_ .f32 0xFF800000#32),
    TRef.binary (TRef.of (T := ⟨S2x2048x32000, .f32⟩) main_v1) (TRef.of (T := ⟨S_, .f32⟩) main_call0_cst) (TRef.of (T := ⟨S2x2048, .f32⟩) main_call0_v0) (fun x v => Host.reduce FloatOps.maximumf x v reducesTo_S2x2048x32000_S2x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x2048, .f32⟩) main_call0_v1) (broadcastInDim S2x2048 ![] bcast_S_S2x2048),
    TRef.binary (TRef.of (T := ⟨S2x2048, .f32⟩) main_call0_v1) (TRef.of (T := ⟨S2x2048, .f32⟩) main_call0_v0) (TRef.of (T := ⟨S2x2048, .f32⟩) main_call0_v2) maximumf,
    TRef.unary (TRef.of (T := ⟨S2x2048, .f32⟩) main_call0_v2) (TRef.of (T := ⟨S2x2048x1, .f32⟩) main_call0_v3) (broadcastInDim S2x2048x1 ![0, 1] bcast_S2x2048_S2x2048x1_0_1),
    TRef.unary (TRef.of (T := ⟨S2x2048x1, .f32⟩) main_call0_v3) (TRef.of (T := ⟨S2x2048x32000, .f32⟩) main_call0_v4) (broadcastInDim S2x2048x32000 ![0, 1, 2] bcast_S2x2048x1_S2x2048x32000_0_1_2),
    TRef.binary (TRef.of (T := ⟨S2x2048x32000, .f32⟩) main_v1) (TRef.of (T := ⟨S2x2048x32000, .f32⟩) main_call0_v4) (TRef.of (T := ⟨S2x2048x32000, .f32⟩) main_call0_v5) subf,
    TRef.unary (TRef.of (T := ⟨S2x2048x32000, .f32⟩) main_call0_v5) (TRef.of (T := ⟨S2x2048x32000, .f32⟩) main_call0_v6) Host.exp,
    TRef.nullary (TRef.of (T := ⟨S_, .f32⟩) main_call0_cst_1) (constant S_ .f32 0x00000000#32),
    TRef.binary (TRef.of (T := ⟨S2x2048x32000, .f32⟩) main_call0_v6) (TRef.of (T := ⟨S_, .f32⟩) main_call0_cst_1) (TRef.of (T := ⟨S2x2048, .f32⟩) main_call0_v7) (fun x v => Host.reduceAdd x v reducesTo_S2x2048x32000_S2x2048_d2 h_S_),
    TRef.unary (TRef.of (T := ⟨S2x2048, .f32⟩) main_call0_v7) (TRef.of (T := ⟨S2x2048x1, .f32⟩) main_call0_v8) (broadcastInDim S2x2048x1 ![0, 1] bcast_S2x2048_S2x2048x1_0_1),
    TRef.unary (TRef.of (T := ⟨S2x2048x1, .f32⟩) main_call0_v8) (TRef.of (T := ⟨S2x2048x1, .f32⟩) main_call0_v9) Host.log,
    TRef.unary (TRef.of (T := ⟨S2x2048x1, .f32⟩) main_call0_v9) (TRef.of (T := ⟨S2x2048x32000, .f32⟩) main_call0_v10) (broadcastInDim S2x2048x32000 ![0, 1, 2] bcast_S2x2048x1_S2x2048x32000_0_1_2),
    TRef.binary (TRef.of (T := ⟨S2x2048x32000, .f32⟩) main_call0_v5) (TRef.of (T := ⟨S2x2048x32000, .f32⟩) main_call0_v10) (TRef.of (T := ⟨S2x2048x32000, .f32⟩) main_v2) subf ]

/-- The second stretch: the second score array to its log-softmax. -/
abbrev opsB : List (HloOp τ sig (Elt F)) :=
  [ nullary main_cst_0 (constant S_ .f32 0x3F800000#32),
    unary main_cst_0 main_v3 (broadcastInDim S2x2048x32000 ![] bcast_S_S2x2048x32000 : (⟨S_, .f32⟩ : BufTy).Contents (Elt F) → (⟨S2x2048x32000, .f32⟩ : BufTy).Contents (Elt F)),
    binary main_arg1 main_v3 main_v4 (Host.divf : (⟨S2x2048x32000, .f32⟩ : BufTy).Contents (Elt F) → (⟨S2x2048x32000, .f32⟩ : BufTy).Contents (Elt F) → (⟨S2x2048x32000, .f32⟩ : BufTy).Contents (Elt F)),
    TRef.nullary (TRef.of (T := ⟨S_, .f32⟩) main_call1_cst) (constant S_ .f32 0xFF800000#32),
    TRef.binary (TRef.of (T := ⟨S2x2048x32000, .f32⟩) main_v4) (TRef.of (T := ⟨S_, .f32⟩) main_call1_cst) (TRef.of (T := ⟨S2x2048, .f32⟩) main_call1_v0) (fun x v => Host.reduce FloatOps.maximumf x v reducesTo_S2x2048x32000_S2x2048_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S2x2048, .f32⟩) main_call1_v1) (broadcastInDim S2x2048 ![] bcast_S_S2x2048),
    TRef.binary (TRef.of (T := ⟨S2x2048, .f32⟩) main_call1_v1) (TRef.of (T := ⟨S2x2048, .f32⟩) main_call1_v0) (TRef.of (T := ⟨S2x2048, .f32⟩) main_call1_v2) maximumf,
    TRef.unary (TRef.of (T := ⟨S2x2048, .f32⟩) main_call1_v2) (TRef.of (T := ⟨S2x2048x1, .f32⟩) main_call1_v3) (broadcastInDim S2x2048x1 ![0, 1] bcast_S2x2048_S2x2048x1_0_1),
    TRef.unary (TRef.of (T := ⟨S2x2048x1, .f32⟩) main_call1_v3) (TRef.of (T := ⟨S2x2048x32000, .f32⟩) main_call1_v4) (broadcastInDim S2x2048x32000 ![0, 1, 2] bcast_S2x2048x1_S2x2048x32000_0_1_2),
    TRef.binary (TRef.of (T := ⟨S2x2048x32000, .f32⟩) main_v4) (TRef.of (T := ⟨S2x2048x32000, .f32⟩) main_call1_v4) (TRef.of (T := ⟨S2x2048x32000, .f32⟩) main_call1_v5) subf,
    TRef.unary (TRef.of (T := ⟨S2x2048x32000, .f32⟩) main_call1_v5) (TRef.of (T := ⟨S2x2048x32000, .f32⟩) main_call1_v6) Host.exp,
    TRef.nullary (TRef.of (T := ⟨S_, .f32⟩) main_call1_cst_1) (constant S_ .f32 0x00000000#32),
    TRef.binary (TRef.of (T := ⟨S2x2048x32000, .f32⟩) main_call1_v6) (TRef.of (T := ⟨S_, .f32⟩) main_call1_cst_1) (TRef.of (T := ⟨S2x2048, .f32⟩) main_call1_v7) (fun x v => Host.reduceAdd x v reducesTo_S2x2048x32000_S2x2048_d2 h_S_),
    TRef.unary (TRef.of (T := ⟨S2x2048, .f32⟩) main_call1_v7) (TRef.of (T := ⟨S2x2048x1, .f32⟩) main_call1_v8) (broadcastInDim S2x2048x1 ![0, 1] bcast_S2x2048_S2x2048x1_0_1),
    TRef.unary (TRef.of (T := ⟨S2x2048x1, .f32⟩) main_call1_v8) (TRef.of (T := ⟨S2x2048x1, .f32⟩) main_call1_v9) Host.log,
    TRef.unary (TRef.of (T := ⟨S2x2048x1, .f32⟩) main_call1_v9) (TRef.of (T := ⟨S2x2048x32000, .f32⟩) main_call1_v10) (broadcastInDim S2x2048x32000 ![0, 1, 2] bcast_S2x2048x1_S2x2048x32000_0_1_2),
    TRef.binary (TRef.of (T := ⟨S2x2048x32000, .f32⟩) main_call1_v5) (TRef.of (T := ⟨S2x2048x32000, .f32⟩) main_call1_v10) (TRef.of (T := ⟨S2x2048x32000, .f32⟩) main_v5) subf ]

/-- The third stretch: the two log-softmaxes and the mask to the result. -/
abbrev opsC : List (HloOp τ sig (Elt F)) :=
  [ binary main_v2 main_v5 main_v6 (addf : (⟨S2x2048x32000, .f32⟩ : BufTy).Contents (Elt F) → (⟨S2x2048x32000, .f32⟩ : BufTy).Contents (Elt F) → (⟨S2x2048x32000, .f32⟩ : BufTy).Contents (Elt F)),
    nullary main_cst_1 (constant S_ .f32 0x3F000000#32),
    unary main_cst_1 main_v7 (broadcastInDim S2x2048x32000 ![] bcast_S_S2x2048x32000 : (⟨S_, .f32⟩ : BufTy).Contents (Elt F) → (⟨S2x2048x32000, .f32⟩ : BufTy).Contents (Elt F)),
    binary main_v7 main_v6 main_v8 (mulf : (⟨S2x2048x32000, .f32⟩ : BufTy).Contents (Elt F) → (⟨S2x2048x32000, .f32⟩ : BufTy).Contents (Elt F) → (⟨S2x2048x32000, .f32⟩ : BufTy).Contents (Elt F)),
    unary main_v2 main_v9 (Host.exp : (⟨S2x2048x32000, .f32⟩ : BufTy).Contents (Elt F) → (⟨S2x2048x32000, .f32⟩ : BufTy).Contents (Elt F)),
    binary main_v2 main_v8 main_v10 (subf : (⟨S2x2048x32000, .f32⟩ : BufTy).Contents (Elt F) → (⟨S2x2048x32000, .f32⟩ : BufTy).Contents (Elt F) → (⟨S2x2048x32000, .f32⟩ : BufTy).Contents (Elt F)),
    binary main_v9 main_v10 main_v11 (mulf : (⟨S2x2048x32000, .f32⟩ : BufTy).Contents (Elt F) → (⟨S2x2048x32000, .f32⟩ : BufTy).Contents (Elt F) → (⟨S2x2048x32000, .f32⟩ : BufTy).Contents (Elt F)),
    nullary main_cst_2 (constant S_ .f32 0x00000000#32),
    binary main_v11 main_cst_2 main_v12 ((fun x v => Host.reduceAdd x v reducesTo_S2x2048x32000_S2x2048_d2 h_S_) : (⟨S2x2048x32000, .f32⟩ : BufTy).Contents (Elt F) → (⟨S_, .f32⟩ : BufTy).Contents (Elt F) → (⟨S2x2048, .f32⟩ : BufTy).Contents (Elt F)),
    unary main_v5 main_v13 (Host.exp : (⟨S2x2048x32000, .f32⟩ : BufTy).Contents (Elt F) → (⟨S2x2048x32000, .f32⟩ : BufTy).Contents (Elt F)),
    binary main_v5 main_v8 main_v14 (subf : (⟨S2x2048x32000, .f32⟩ : BufTy).Contents (Elt F) → (⟨S2x2048x32000, .f32⟩ : BufTy).Contents (Elt F) → (⟨S2x2048x32000, .f32⟩ : BufTy).Contents (Elt F)),
    binary main_v13 main_v14 main_v15 (mulf : (⟨S2x2048x32000, .f32⟩ : BufTy).Contents (Elt F) → (⟨S2x2048x32000, .f32⟩ : BufTy).Contents (Elt F) → (⟨S2x2048x32000, .f32⟩ : BufTy).Contents (Elt F)),
    nullary main_cst_3 (constant S_ .f32 0x00000000#32),
    binary main_v15 main_cst_3 main_v16 ((fun x v => Host.reduceAdd x v reducesTo_S2x2048x32000_S2x2048_d2 h_S_) : (⟨S2x2048x32000, .f32⟩ : BufTy).Contents (Elt F) → (⟨S_, .f32⟩ : BufTy).Contents (Elt F) → (⟨S2x2048, .f32⟩ : BufTy).Contents (Elt F)),
    unary main_arg2 main_v17 (uitofp .f32 : (⟨S2x2048, .i1⟩ : BufTy).Contents (Elt F) → (⟨S2x2048, .f32⟩ : BufTy).Contents (Elt F)),
    nullary main_cst_4 (constant S_ .f32 0x00000000#32),
    binary main_v17 main_cst_4 main_v18 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)),
    nullary main_cst_5 (constant S_ .f32 0x3F800000#32),
    binary main_v18 main_cst_5 main_v19 (maximumf : (⟨S_, .f32⟩ : BufTy).Contents (Elt F) → (⟨S_, .f32⟩ : BufTy).Contents (Elt F) → (⟨S_, .f32⟩ : BufTy).Contents (Elt F)),
    binary main_v12 main_v16 main_v20 (addf : (⟨S2x2048, .f32⟩ : BufTy).Contents (Elt F) → (⟨S2x2048, .f32⟩ : BufTy).Contents (Elt F) → (⟨S2x2048, .f32⟩ : BufTy).Contents (Elt F)),
    binary main_v20 main_v17 main_v21 (mulf : (⟨S2x2048, .f32⟩ : BufTy).Contents (Elt F) → (⟨S2x2048, .f32⟩ : BufTy).Contents (Elt F) → (⟨S2x2048, .f32⟩ : BufTy).Contents (Elt F)),
    nullary main_cst_6 (constant S_ .f32 0x00000000#32),
    binary main_v21 main_cst_6 main_v22 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v22 main_v23 (mulf : (⟨S_, .f32⟩ : BufTy).Contents (Elt F) → (⟨S_, .f32⟩ : BufTy).Contents (Elt F) → (⟨S_, .f32⟩ : BufTy).Contents (Elt F)),
    binary main_v23 main_v19 main_v24 (Host.divf : (⟨S_, .f32⟩ : BufTy).Contents (Elt F) → (⟨S_, .f32⟩ : BufTy).Contents (Elt F) → (⟨S_, .f32⟩ : BufTy).Contents (Elt F)) ]

/-- The line is its three stretches in order. -/
theorem ops_split : (ops : List (HloOp τ sig (Elt F))) = opsA ++ (opsB ++ opsC) := rfl

/-- Contents moved to a buffer's type and back are the contents. -/
theorem ofBuf_toBuf {T : BufTy} (x : TRef sig T) (v : T.Contents (Elt F)) : x.ofBuf (x.toBuf v) = v := by
  unfold TRef.ofBuf TRef.toBuf
  simp

section Stretches

attribute [local irreducible] Host.reduce Host.reduceAdd

variable (V : Valuation τ sig (Elt F))

set_option maxRecDepth 8192 in
/-- The first stretch leaves the first log-softmax of the first argument, -/
theorem afterA_v2 : after opsA V (main_v2 : DevRef τ sig) = val_main_v2 (F := F) (V (main_arg0 : DevRef τ sig)) := by
  after_results_simp
  simp only [ofBuf_toBuf]
  rfl
set_option maxRecDepth 8192 in
/-- and the arguments where they were. -/
theorem afterA_arg0 : after opsA V (main_arg0 : DevRef τ sig) = V (main_arg0 : DevRef τ sig) := by
  simp only [after_cons, after_nil]
  rfl
set_option maxRecDepth 8192 in
theorem afterA_arg1 : after opsA V (main_arg1 : DevRef τ sig) = V (main_arg1 : DevRef τ sig) := by
  simp only [after_cons, after_nil]
  rfl
set_option maxRecDepth 8192 in
theorem afterA_arg2 : after opsA V (main_arg2 : DevRef τ sig) = V (main_arg2 : DevRef τ sig) := by
  simp only [after_cons, after_nil]
  rfl

set_option maxRecDepth 8192 in
/-- The second stretch leaves the second log-softmax of the second argument, -/
theorem afterB_v5 : after opsB V (main_v5 : DevRef τ sig) = val_main_v5 (F := F) (V (main_arg1 : DevRef τ sig)) := by
  after_results_simp
  simp only [ofBuf_toBuf]
  rfl
set_option maxRecDepth 8192 in
/-- the first log-softmax and the arguments where they were. -/
theorem afterB_v2 : after opsB V (main_v2 : DevRef τ sig) = V (main_v2 : DevRef τ sig) := by
  simp only [after_cons, after_nil]
  rfl
set_option maxRecDepth 8192 in
theorem afterB_arg0 : after opsB V (main_arg0 : DevRef τ sig) = V (main_arg0 : DevRef τ sig) := by
  simp only [after_cons, after_nil]
  rfl
set_option maxRecDepth 8192 in
theorem afterB_arg1 : after opsB V (main_arg1 : DevRef τ sig) = V (main_arg1 : DevRef τ sig) := by
  simp only [after_cons, after_nil]
  rfl
set_option maxRecDepth 8192 in
theorem afterB_arg2 : after opsB V (main_arg2 : DevRef τ sig) = V (main_arg2 : DevRef τ sig) := by
  simp only [after_cons, after_nil]
  rfl

set_option maxRecDepth 8192 in
/-- The third stretch, from buffers holding the two log-softmaxes of `x0`, `x1` and the mask `x2`, leaves the last stage, -/
theorem afterC_v24 (x0 x1 : (⟨S2x2048x32000, .f32⟩ : BufTy).Contents (Elt F)) (x2 : (⟨S2x2048, .i1⟩ : BufTy).Contents (Elt F))
    (h2 : V (main_v2 : DevRef τ sig) = val_main_v2 (F := F) x0) (h5 : V (main_v5 : DevRef τ sig) = val_main_v5 (F := F) x1)
    (hx : V (main_arg2 : DevRef τ sig) = x2) :
    after opsC V (main_v24 : DevRef τ sig) = val_main_v24 (F := F) x0 x1 x2 := by
  have e : after opsC V (main_v24 : DevRef τ sig)
      = Host.divf (mulf (constant S_ .f32 0x3F000000#32)
          (Host.reduceAdd (mulf (addf
              (Host.reduceAdd (mulf (Host.exp (V (main_v2 : DevRef τ sig)))
                (subf (V (main_v2 : DevRef τ sig)) (mulf (broadcastInDim S2x2048x32000 ![] bcast_S_S2x2048x32000 (constant S_ .f32 0x3F000000#32))
                  (addf (V (main_v2 : DevRef τ sig)) (V (main_v5 : DevRef τ sig))))))
                (constant S_ .f32 0x00000000#32) reducesTo_S2x2048x32000_S2x2048_d2 h_S_)
              (Host.reduceAdd (mulf (Host.exp (V (main_v5 : DevRef τ sig)))
                (subf (V (main_v5 : DevRef τ sig)) (mulf (broadcastInDim S2x2048x32000 ![] bcast_S_S2x2048x32000 (constant S_ .f32 0x3F000000#32))
                  (addf (V (main_v2 : DevRef τ sig)) (V (main_v5 : DevRef τ sig))))))
                (constant S_ .f32 0x00000000#32) reducesTo_S2x2048x32000_S2x2048_d2 h_S_))
            (uitofp .f32 (V (main_arg2 : DevRef τ sig))))
            (constant S_ .f32 0x00000000#32) reducesTo_S2x2048_S_d0_1 h_S_))
        (maximumf (Host.reduceAdd (uitofp .f32 (V (main_arg2 : DevRef τ sig))) (constant S_ .f32 0x00000000#32) reducesTo_S2x2048_S_d0_1 h_S_)
          (constant S_ .f32 0x3F800000#32)) := by
    after_results_simp
  rw [e, h2, h5, hx]
  rfl
set_option maxRecDepth 8192 in
/-- and the arguments where they were. -/
theorem afterC_arg0 : after opsC V (main_arg0 : DevRef τ sig) = V (main_arg0 : DevRef τ sig) := by
  simp only [after_cons, after_nil]
  rfl
set_option maxRecDepth 8192 in
theorem afterC_arg1 : after opsC V (main_arg1 : DevRef τ sig) = V (main_arg1 : DevRef τ sig) := by
  simp only [after_cons, after_nil]
  rfl
set_option maxRecDepth 8192 in
theorem afterC_arg2 : after opsC V (main_arg2 : DevRef τ sig) = V (main_arg2 : DevRef τ sig) := by
  simp only [after_cons, after_nil]
  rfl

end Stretches

variable (V : Valuation τ sig (Elt F))

/-- THE WHOLE LINE leaves, at the result buffer, the last stage of the three arguments. -/
theorem after_v24 : after ops V (main_v24 : DevRef τ sig)
    = val_main_v24 (F := F) (V (main_arg0 : DevRef τ sig)) (V (main_arg1 : DevRef τ sig)) (V (main_arg2 : DevRef τ sig)) := by
  rw [ops_split, after_append, after_append]
  refine afterC_v24 _ _ _ _ ?_ ?_ ?_
  · rw [afterB_v2, afterA_v2]
  · rw [afterB_v5, afterA_arg1]
  · rw [afterB_arg2, afterA_arg2]

theorem after_arg0 : after ops V (main_arg0 : DevRef τ sig) = V (main_arg0 : DevRef τ sig) := by
  rw [ops_split, after_append, after_append, afterC_arg0, afterB_arg0, afterA_arg0]
theorem after_arg1 : after ops V (main_arg1 : DevRef τ sig) = V (main_arg1 : DevRef τ sig) := by
  rw [ops_split, after_append, after_append, afterC_arg1, afterB_arg1, afterA_arg1]
theorem after_arg2 : after ops V (main_arg2 : DevRef τ sig) = V (main_arg2 : DevRef τ sig) := by
  rw [ops_split, after_append, after_append, afterC_arg2, afterB_arg2, afterA_arg2]

/-- THE RUN, READ: on every device, from any memory with zero counters, every weakly fair execution of @main terminates
    with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = val_main_v24 (F := F) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (after_v24 _), (h c main_arg0).trans (after_arg0 _),
      (h c main_arg1).trans (after_arg1 _), (h c main_arg2).trans (after_arg2 _)⟩)
    (run_seq scopedRefs_eq scopedSems_eq defs main (fun _ => ops) main_eq (fun _ => ops_sub) m ρ)

end Cert.ReferenceIdeal.Stages

end
-- ==== Proof.RefSpec.lean ====
/-
  The reference's last stage, as the specification: the second numerator over the count.

  Stage by stage, at an index written by its coordinates. A score divided by the splat of the word of 1 is the score.
  The called function (the log-softmax along the last axis) takes the row's maximum from the word of -infinity, the
  score less it, the exponential, the row's sum from the zero word, its logarithm, and the difference: the
  log-probability in its second spelling. @main then forms, along each row, the two sums against half the sum of the two
  log-probabilities, adds them (the two-sum divergence of the row), multiplies by the mask converted to a float, sums
  over all rows from the zero word, scales by the word of 0.5 and divides by the larger of the sum of the converted mask
  and the word of 1.
-/
import Idealize.ShloMosaic.Lib.ValueIdx
import Idealize.ShloMosaic.PureOps.Reduce
import proofs.«110897_j6786048328246_1_alg».proof.Proof.RefRead
import proofs.«110897_j6786048328246_1_alg».proof.Proof.LibSoftmaxSum
import proofs.«110897_j6786048328246_1_alg».proof.Proof.JsdTotal

noncomputable section

open scoped BigOperators

namespace Cert.ReferenceIdeal.Spec

open Cert.ReferenceIdeal Cert.ReferenceIdeal.Gen Cert.ReferenceIdeal.ReadP
open Idealize.ShloMosaic Idealize.ShloMosaic.ValueIdx Cert.LibReal Cert.SoftmaxSum Cert.Jsd

/-- An extended real divided by the word of 1 is itself. -/
theorem div_one (x : EReal) : Ideal.div x (Ideal.ofBits .f32 0x3F800000#32) = x := by
  rw [ofBits_one, show (1 : EReal) = ((1 : ℝ) : EReal) from rfl, Ideal.div_coe one_ne_zero, one_div_one, EReal.coe_one, mul_one]

/-- The last axis of [2, 2048, 32000] reduces onto [2, 2048]. -/
theorem hred : S2x2048x32000.Reduces [2] S2x2048 := by decide

/-- The source index over (b, s) with coordinate k on the reduced axis is (b, s, k). -/
theorem lift_last (b : Fin 2) (s : Fin 2048) (k : Fin 32000) : hred.lift (ix2 b s) k = ix3 b s k := by
  funext c
  apply Fin.ext
  show Shape.Reduces.liftVal hred (ix2 b s) k.val c = (ix3 b s k c).val
  unfold Shape.Reduces.liftVal
  match c with
  | ⟨0, _⟩ => rfl
  | ⟨1, _⟩ => rfl
  | ⟨2, _⟩ => rfl

/-- The first score array divided by the splat of the word of 1 is itself. -/
theorem v1_eq (x : Scores) : val_main_v1 (F := Ideal) x = x := by
  funext i
  rw [val_main_v1_apply, val_main_v0_apply, val_main_cst_apply]
  exact div_one (x i)

/-- The row's maximum as the called function takes it (a reduce by maximum from the word of -infinity, then the maximum
    with the splat of that word): the row's peak. -/
theorem peak0 (x : Scores) (b : Fin 2) (s : Fin 2048) :
    val_main_call0_v2 (F := Ideal) x (ix2 b s) = peak (fun v : Fin 32000 => x (ix3 b s v)) := by
  rw [val_main_call0_v2_apply, val_main_call0_v1_apply, val_main_call0_cst_0_apply]
  unfold val_main_call0_v0
  rw [v1_eq]
  have e := Host.reduce_eq_fold_single (FloatOps.maximumf (F := Ideal) (φ := .f32)) x (val_main_call0_cst (F := Ideal))
    reducesTo_S2x2048x32000_S2x2048_d2 hred h_S_ (ix2 b s)
  rw [e, val_main_call0_cst_apply]
  show max (Ideal.ofBits .f32 0xFF800000#32)
    ((Finset.univ : Finset (Fin 32000)).fold max (Ideal.ofBits .f32 0xFF800000#32) (x ∘ hred.lift (ix2 b s))) = _
  rw [ofBits_neg_inf, max_bot_left]
  unfold peak
  exact congrArg (fun f => Finset.fold max ⊥ f (Finset.univ : Finset (Fin 32000)))
    (funext fun k => congrArg x (lift_last b s k))

/-- The score less its row's peak. -/
theorem shift0 (x : Scores) (b : Fin 2) (s : Fin 2048) (v : Fin 32000) :
    val_main_call0_v5 (F := Ideal) x (ix3 b s v) = x (ix3 b s v) - peak (fun v' : Fin 32000 => x (ix3 b s v')) := by
  rw [val_main_call0_v5_apply, v1_eq, val_main_call0_v4_apply, val_main_call0_v3_apply]
  have e : idx_main_call0_v3 (idx_main_call0_v4 (ix3 b s v)) = ix2 b s :=
    funext fun a => Fin.ext (by match a with | ⟨0, _⟩ => rfl | ⟨1, _⟩ => rfl)
  rw [e, peak0]
  rfl

/-- The row's sum of exponentials from the zero word: the row's mass. -/
theorem mass0 (x : Scores) (b : Fin 2) (s : Fin 2048) :
    val_main_call0_v7 (F := Ideal) x (ix2 b s) = mass (fun v : Fin 32000 => x (ix3 b s v)) := by
  rw [val_main_call0_v7_apply, val_main_call0_cst_1_apply]
  show Ideal.ofBits .f32 0x00000000#32 + _ = _
  rw [Ideal.ofBits_zero_f32, zero_add]
  unfold mass weight
  refine Finset.sum_congr rfl fun (k : Fin 32000) _ => ?_
  have e : idx_main_call0_v7 (ix2 b s) k = ix3 b s k :=
    funext fun a => Fin.ext (by match a with | ⟨0, _⟩ => rfl | ⟨1, _⟩ => rfl | ⟨2, _⟩ => rfl)
  rw [e, val_main_call0_v6_apply, shift0]
  rfl

/-- The called function's result: the log-probability in its second spelling. -/
theorem logp0 (x : Scores) (b : Fin 2) (s : Fin 2048) (v : Fin 32000) :
    val_main_v2 (F := Ideal) x (ix3 b s v) = logpB (fun v' : Fin 32000 => x (ix3 b s v')) v := by
  rw [val_main_v2_apply, shift0, val_main_call0_v10_apply, val_main_call0_v9_apply, val_main_call0_v8_apply]
  have e : idx_main_call0_v8 (idx_main_call0_v10 (ix3 b s v)) = ix2 b s :=
    funext fun a => Fin.ext (by match a with | ⟨0, _⟩ => rfl | ⟨1, _⟩ => rfl)
  rw [e, mass0]
  simp only [Ideal.subf_def, Ideal.hostUnary_log_def, logpB]

/-- The second score array divided by the splat of the word of 1 is itself. -/
theorem v4_eq (x : Scores) : val_main_v4 (F := Ideal) x = x := by
  funext i
  rw [val_main_v4_apply, val_main_v3_apply, val_main_cst_0_apply]
  exact div_one (x i)

/-- The row's maximum as the called function takes it (a reduce by maximum from the word of -infinity, then the maximum
    with the splat of that word): the row's peak. -/
theorem peak1 (x : Scores) (b : Fin 2) (s : Fin 2048) :
    val_main_call1_v2 (F := Ideal) x (ix2 b s) = peak (fun v : Fin 32000 => x (ix3 b s v)) := by
  rw [val_main_call1_v2_apply, val_main_call1_v1_apply, val_main_call1_cst_0_apply]
  unfold val_main_call1_v0
  rw [v4_eq]
  have e := Host.reduce_eq_fold_single (FloatOps.maximumf (F := Ideal) (φ := .f32)) x (val_main_call1_cst (F := Ideal))
    reducesTo_S2x2048x32000_S2x2048_d2 hred h_S_ (ix2 b s)
  rw [e, val_main_call1_cst_apply]
  show max (Ideal.ofBits .f32 0xFF800000#32)
    ((Finset.univ : Finset (Fin 32000)).fold max (Ideal.ofBits .f32 0xFF800000#32) (x ∘ hred.lift (ix2 b s))) = _
  rw [ofBits_neg_inf, max_bot_left]
  unfold peak
  exact congrArg (fun f => Finset.fold max ⊥ f (Finset.univ : Finset (Fin 32000)))
    (funext fun k => congrArg x (lift_last b s k))

/-- The score less its row's peak. -/
theorem shift1 (x : Scores) (b : Fin 2) (s : Fin 2048) (v : Fin 32000) :
    val_main_call1_v5 (F := Ideal) x (ix3 b s v) = x (ix3 b s v) - peak (fun v' : Fin 32000 => x (ix3 b s v')) := by
  rw [val_main_call1_v5_apply, v4_eq, val_main_call1_v4_apply, val_main_call1_v3_apply]
  have e : idx_main_call1_v3 (idx_main_call1_v4 (ix3 b s v)) = ix2 b s :=
    funext fun a => Fin.ext (by match a with | ⟨0, _⟩ => rfl | ⟨1, _⟩ => rfl)
  rw [e, peak1]
  rfl

/-- The row's sum of exponentials from the zero word: the row's mass. -/
theorem mass1 (x : Scores) (b : Fin 2) (s : Fin 2048) :
    val_main_call1_v7 (F := Ideal) x (ix2 b s) = mass (fun v : Fin 32000 => x (ix3 b s v)) := by
  rw [val_main_call1_v7_apply, val_main_call1_cst_1_apply]
  show Ideal.ofBits .f32 0x00000000#32 + _ = _
  rw [Ideal.ofBits_zero_f32, zero_add]
  unfold mass weight
  refine Finset.sum_congr rfl fun (k : Fin 32000) _ => ?_
  have e : idx_main_call1_v7 (ix2 b s) k = ix3 b s k :=
    funext fun a => Fin.ext (by match a with | ⟨0, _⟩ => rfl | ⟨1, _⟩ => rfl | ⟨2, _⟩ => rfl)
  rw [e, val_main_call1_v6_apply, shift1]
  rfl

/-- The called function's result: the log-probability in its second spelling. -/
theorem logp1 (x : Scores) (b : Fin 2) (s : Fin 2048) (v : Fin 32000) :
    val_main_v5 (F := Ideal) x (ix3 b s v) = logpB (fun v' : Fin 32000 => x (ix3 b s v')) v := by
  rw [val_main_v5_apply, shift1, val_main_call1_v10_apply, val_main_call1_v9_apply, val_main_call1_v8_apply]
  have e : idx_main_call1_v8 (idx_main_call1_v10 (ix3 b s v)) = ix2 b s :=
    funext fun a => Fin.ext (by match a with | ⟨0, _⟩ => rfl | ⟨1, _⟩ => rfl)
  rw [e, mass1]
  simp only [Ideal.subf_def, Ideal.hostUnary_log_def, logpB]

/-- Half the sum of the two log-probabilities. -/
theorem mean_apply (x0 x1 : Scores) (b : Fin 2) (s : Fin 2048) (v : Fin 32000) :
    val_main_v8 (F := Ideal) x0 x1 (ix3 b s v) = Ideal.ofBits .f32 0x3F000000#32
      * (logpB (fun v' : Fin 32000 => x0 (ix3 b s v')) v + logpB (fun v' : Fin 32000 => x1 (ix3 b s v')) v) := by
  rw [val_main_v8_apply, val_main_v7_apply, val_main_cst_1_apply, val_main_v6_apply, logp0, logp1]
  rfl

/-- The first row sum. -/
theorem sumP_apply (x0 x1 : Scores) (b : Fin 2) (s : Fin 2048) :
    val_main_v12 (F := Ideal) x0 x1 (ix2 b s)
      = ∑ k : Fin 32000, Ideal.exp (logpB (fun v' : Fin 32000 => x0 (ix3 b s v')) k)
          * (logpB (fun v' : Fin 32000 => x0 (ix3 b s v')) k - Ideal.ofBits .f32 0x3F000000#32
            * (logpB (fun v' : Fin 32000 => x0 (ix3 b s v')) k + logpB (fun v' : Fin 32000 => x1 (ix3 b s v')) k)) := by
  rw [val_main_v12_apply, val_main_cst_2_apply]
  show Ideal.ofBits .f32 0x00000000#32 + _ = _
  rw [Ideal.ofBits_zero_f32, zero_add]
  refine Finset.sum_congr rfl fun (k : Fin 32000) _ => ?_
  have e : idx_main_v12 (ix2 b s) k = ix3 b s k :=
    funext fun a => Fin.ext (by match a with | ⟨0, _⟩ => rfl | ⟨1, _⟩ => rfl | ⟨2, _⟩ => rfl)
  rw [e, val_main_v11_apply, val_main_v9_apply, val_main_v10_apply, logp0, mean_apply]
  rfl

/-- The second row sum. -/
theorem sumQ_apply (x0 x1 : Scores) (b : Fin 2) (s : Fin 2048) :
    val_main_v16 (F := Ideal) x0 x1 (ix2 b s)
      = ∑ k : Fin 32000, Ideal.exp (logpB (fun v' : Fin 32000 => x1 (ix3 b s v')) k)
          * (logpB (fun v' : Fin 32000 => x1 (ix3 b s v')) k - Ideal.ofBits .f32 0x3F000000#32
            * (logpB (fun v' : Fin 32000 => x0 (ix3 b s v')) k + logpB (fun v' : Fin 32000 => x1 (ix3 b s v')) k)) := by
  rw [val_main_v16_apply, val_main_cst_3_apply]
  show Ideal.ofBits .f32 0x00000000#32 + _ = _
  rw [Ideal.ofBits_zero_f32, zero_add]
  refine Finset.sum_congr rfl fun (k : Fin 32000) _ => ?_
  have e : idx_main_v16 (ix2 b s) k = ix3 b s k :=
    funext fun a => Fin.ext (by match a with | ⟨0, _⟩ => rfl | ⟨1, _⟩ => rfl | ⟨2, _⟩ => rfl)
  rw [e, val_main_v15_apply, val_main_v13_apply, val_main_v14_apply, logp1, mean_apply]
  rfl

/-- Their sum: the two-sum divergence of the row. -/
theorem div_apply (x0 x1 : Scores) (b : Fin 2) (s : Fin 2048) :
    val_main_v20 (F := Ideal) x0 x1 (ix2 b s) = divB x0 x1 b s := by
  rw [val_main_v20_apply, sumP_apply, sumQ_apply]
  rfl

/-- THE REFERENCE'S RESULT: the second numerator over the count, of the arguments. -/
theorem result_apply (x0 x1 : Scores) (x2 : IVec S2x2048 1) (i : S_.Idx) :
    val_main_v24 (F := Ideal) x0 x1 x2 i
      = Ideal.div (numB x0 x1 (uitofp (F := Ideal) .f32 x2)) (cnt (uitofp (F := Ideal) .f32 x2)) := by
  rw [val_main_v24_apply, val_main_v23_apply, val_main_cst_7_apply, val_main_v22_apply, val_main_cst_6_apply,
    val_main_v19_apply, val_main_v18_apply, val_main_cst_4_apply, val_main_cst_5_apply]
  show Ideal.div (Ideal.ofBits .f32 0x3F000000#32 * (Ideal.ofBits .f32 0x00000000#32 + _))
    (max (Ideal.ofBits .f32 0x00000000#32 + _) (Ideal.ofBits .f32 0x3F800000#32)) = _
  rw [Ideal.ofBits_zero_f32, zero_add, zero_add]
  unfold numB cnt
  refine congrArg₂ Ideal.div (congrArg (Ideal.ofBits .f32 0x3F000000#32 * ·) (Finset.sum_congr rfl fun j _ => ?_)) rfl
  rw [val_main_v21_apply]
  rw [show val_main_v20 (F := Ideal) x0 x1 j = divB x0 x1 (j 0) (j 1) from
    (congrArg (val_main_v20 (F := Ideal) x0 x1) (eq_ix2 j)).trans (div_apply x0 x1 (j 0) (j 1))]
  rfl

end Cert.ReferenceIdeal.Spec

end
-- ==== Proof.lean ====
/-
  The kernel sums, over the masked rows of two [2, 2048, 32000] score arrays, a symmetric divergence of the rows'
  softmaxes, and divides by the number of masked rows (at least one).

  Per row, with x and y the log-probabilities of the two score rows, the kernel sums (x - y) * (exp x - exp y) over the
  row; the reference sums exp x * (x - (x + y)/2) and exp y * (y - (x + y)/2) and adds the two sums. Over the reals the
  second is half the first, term by term. The kernel weighs each row's value by the mask, sums sixteen rows per tile,
  128 tiles per batch into one entry per batch (an accumulator reset at the batch's first tile), sums the two entries on
  the host, and scales by 1/4; the reference weighs and sums all rows at once and scales by 1/2. Both divide by the same
  count. The two log-probabilities are spelled s - (peak + log mass) in the kernel and (s - peak) - log mass in the
  reference: the same real number once the scores are real, which the precondition says they are; and every quantity
  on the way (the peak of a non-empty real row, the positive mass, its logarithm, the weights 0 and 1) is then a real
  number, so the identity over the reals carries to the extended reals.

  The frames of the two kernel programs are generated. The reference's frame is its run with the result dropped; the
  ideal pass rewrote nothing, so `preserves` is trivial.
-/
import proofs.«110897_j6786048328246_1_alg».proof.Defs
import proofs.«110897_j6786048328246_1_alg».proof.Proof.Gen.Kernel
import proofs.«110897_j6786048328246_1_alg».proof.Proof.Gen.Kernel.Skeleton
import proofs.«110897_j6786048328246_1_alg».proof.Proof.Gen.Kernel.Launch
import proofs.«110897_j6786048328246_1_alg».proof.Proof.Gen.Kernel.Points
import proofs.«110897_j6786048328246_1_alg».proof.Proof.Gen.Kernel.Frame
import proofs.«110897_j6786048328246_1_alg».proof.Proof.Gen.KernelIdeal
import proofs.«110897_j6786048328246_1_alg».proof.Proof.Gen.KernelIdeal.Skeleton
import proofs.«110897_j6786048328246_1_alg».proof.Proof.Gen.KernelIdeal.Launch
import proofs.«110897_j6786048328246_1_alg».proof.Proof.Gen.KernelIdeal.Points
import proofs.«110897_j6786048328246_1_alg».proof.Proof.Gen.KernelIdeal.Frame
import proofs.«110897_j6786048328246_1_alg».proof.Proof.Gen.ReferenceIdeal
import proofs.«110897_j6786048328246_1_alg».proof.Proof.Gen.Pre_finite_inputs
import proofs.«110897_j6786048328246_1_alg».proof.Proof.JsdPre
import proofs.«110897_j6786048328246_1_alg».proof.Proof.JsdKernelSpec
import proofs.«110897_j6786048328246_1_alg».proof.Proof.RefStages
import proofs.«110897_j6786048328246_1_alg».proof.Proof.RefSpec
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Stages.run (F := Ideal) m ρ)

/-- At the extended reals the kernel's result is the first numerator over the count, the reference's the second
    numerator over the same count, of arguments that agree; for real scores (the precondition) and the weights 0 and 1
    the two numerators are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2]
  funext i
  obtain ⟨h0, h1⟩ := Cert.Jsd.Pre.real_of_pre _ _ _ (hpre c)
  have hnum := Cert.Jsd.numA_eq_numB (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (Cert.KernelIdeal.Val.weights m c) h0 h1 (Cert.KernelIdeal.Val.weights_real m c)
  rw [Cert.ReferenceIdeal.Spec.result_apply]
  refine Eq.trans ?_ (Cert.KernelIdeal.Val.result_apply m c i).symm
  rw [hnum]
  unfold Cert.KernelIdeal.Val.weights
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
